-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S16384 : Shape := ⟨1, ![16384]⟩
abbrev S2x2000000 : Shape := ⟨2, ![2, 2000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S200000x64 .f32) (main_arg1 : FVec F S100000x64 .f32) (main_arg2 : IVec S16384 32) (main_arg3 : IVec S16384 32) (main_arg4 : IVec S2x2000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S200000x64 : Shape := ⟨2, ![200000, 64]⟩
abbrev S100000x64 : Shape := ⟨2, ![100000, 64]⟩
abbrev S16384 : Shape := ⟨1, ![16384]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S2000x64 : Shape := ⟨2, ![2000, 64]⟩
abbrev S2000 : Shape := ⟨1, ![2000]⟩
abbrev S2000x1 : Shape := ⟨2, ![2000, 1]⟩
abbrev S16384x1 : Shape := ⟨2, ![16384, 1]⟩
abbrev S16384x64 : Shape := ⟨2, ![16384, 64]⟩
abbrev S2048x64 : Shape := ⟨2, ![2048, 64]⟩
abbrev S2048 : Shape := ⟨1, ![2048]⟩

abbrev nBuf : Space → Nat
  | .hbm => 124
  | .vmem => 54
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S16384, .i32⟩
  | .hbm, ⟨3, _⟩ => ⟨S16384, .i32⟩
  | .hbm, ⟨4, _⟩ => ⟨S2x2000000, .i32⟩
  | .hbm, ⟨5, _⟩ => ⟨S1x2000000, .i32⟩
  | .hbm, ⟨6, _⟩ => ⟨S2000000, .i32⟩
  | .hbm, ⟨7, _⟩ => ⟨S1x2000000, .i32⟩
  | .hbm, ⟨8, _⟩ => ⟨S2000000, .i32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S_, .f32⟩
  | .hbm, ⟨19, _⟩ => ⟨S200000x64, .f32⟩
  | .hbm, ⟨20, _⟩ => ⟨S2000000x1, .i32⟩
  | .hbm, ⟨21, _⟩ => ⟨S200000x64, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x64, .f32⟩
  | .hbm, ⟨31, _⟩ => ⟨S_, .f32⟩
  | .hbm, ⟨32, _⟩ => ⟨S100000x64, .f32⟩
  | .hbm, ⟨33, _⟩ => ⟨S2000000x1, .i32⟩
  | .hbm, ⟨34, _⟩ => ⟨S100000x64, .f32⟩
  | .hbm, ⟨35, _⟩ => ⟨S200000x64, .f32⟩
  | .hbm, ⟨36, _⟩ => ⟨S200000x64, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000x64, .f32⟩
  | .hbm, ⟨48, _⟩ => ⟨S_, .f32⟩
  | .hbm, ⟨49, _⟩ => ⟨S200000x64, .f32⟩
  | .hbm, ⟨50, _⟩ => ⟨S2000000x1, .i32⟩
  | .hbm, ⟨51, _⟩ => ⟨S200000x64, .f32⟩
  | .hbm, ⟨52, _⟩ => ⟨S_, .i32⟩
  | .hbm, ⟨53, _⟩ => ⟨S2000000, .i32⟩
  | .hbm, ⟨54, _⟩ => ⟨S2000000, .i1⟩
  | .hbm, ⟨55, _⟩ => ⟨S_, .i32⟩
  | .hbm, ⟨56, _⟩ => ⟨S2000000, .i32⟩
  | .hbm, ⟨57, _⟩ => ⟨S2000000, .i32⟩
  | .hbm, ⟨58, _⟩ => ⟨S2000000, .i32⟩
  | .hbm, ⟨59, _⟩ => ⟨S2000000x1, .i32⟩
  | .hbm, ⟨60, _⟩ => ⟨S2000000x64, .f32⟩
  | .hbm, ⟨61, _⟩ => ⟨S_, .f32⟩
  | .hbm, ⟨62, _⟩ => ⟨S100000x64, .f32⟩
  | .hbm, ⟨63, _⟩ => ⟨S2000000x1, .i32⟩
  | .hbm, ⟨64, _⟩ => ⟨S100000x64, .f32⟩
  | .hbm, ⟨65, _⟩ => ⟨S200000x64, .f32⟩
  | .hbm, ⟨66, _⟩ => ⟨S200000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S2000000, .i32⟩
  | .hbm, ⟨71, _⟩ => ⟨S2000000, .i1⟩
  | .hbm, ⟨72, _⟩ => ⟨S_, .i32⟩
  | .hbm, ⟨73, _⟩ => ⟨S2000000, .i32⟩
  | .hbm, ⟨74, _⟩ => ⟨S2000000, .i32⟩
  | .hbm, ⟨75, _⟩ => ⟨S2000000, .i32⟩
  | .hbm, ⟨76, _⟩ => ⟨S2000000x1, .i32⟩
  | .hbm, ⟨77, _⟩ => ⟨S2000000x64, .f32⟩
  | .hbm, ⟨78, _⟩ => ⟨S_, .f32⟩
  | .hbm, ⟨79, _⟩ => ⟨S200000x64, .f32⟩
  | .hbm, ⟨80, _⟩ => ⟨S2000000x1, .i32⟩
  | .hbm, ⟨81, _⟩ => ⟨S200000x64, .f32⟩
  | .hbm, ⟨82, _⟩ => ⟨S_, .i32⟩
  | .hbm, ⟨83, _⟩ => ⟨S2000000, .i32⟩
  | .hbm, ⟨84, _⟩ => ⟨S2000000, .i1⟩
  | .hbm, ⟨85, _⟩ => ⟨S_, .i32⟩
  | .hbm, ⟨86, _⟩ => ⟨S2000000, .i32⟩
  | .hbm, ⟨87, _⟩ => ⟨S2000000, .i32⟩
  | .hbm, ⟨88, _⟩ => ⟨S2000000, .i32⟩
  | .hbm, ⟨89, _⟩ => ⟨S2000000x1, .i32⟩
  | .hbm, ⟨90, _⟩ => ⟨S2000000x64, .f32⟩
  | .hbm, ⟨91, _⟩ => ⟨S_, .f32⟩
  | .hbm, ⟨92, _⟩ => ⟨S100000x64, .f32⟩
  | .hbm, ⟨93, _⟩ => ⟨S2000000x1, .i32⟩
  | .hbm, ⟨94, _⟩ => ⟨S100000x64, .f32⟩
  | .hbm, ⟨95, _⟩ => ⟨S200000x64, .f32⟩
  | .hbm, ⟨96, _⟩ => ⟨S200000x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S200000x64, .f32⟩
  | .hbm, ⟨101, _⟩ => ⟨S200000x64, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S_, .i32⟩
  | .hbm, ⟨106, _⟩ => ⟨S16384, .i32⟩
  | .hbm, ⟨107, _⟩ => ⟨S16384, .i1⟩
  | .hbm, ⟨108, _⟩ => ⟨S_, .i32⟩
  | .hbm, ⟨109, _⟩ => ⟨S16384, .i32⟩
  | .hbm, ⟨110, _⟩ => ⟨S16384, .i32⟩
  | .hbm, ⟨111, _⟩ => ⟨S16384, .i32⟩
  | .hbm, ⟨112, _⟩ => ⟨S16384x1, .i32⟩
  | .hbm, ⟨113, _⟩ => ⟨S16384x64, .f32⟩
  | .hbm, ⟨114, _⟩ => ⟨S_, .i32⟩
  | .hbm, ⟨115, _⟩ => ⟨S16384, .i32⟩
  | .hbm, ⟨116, _⟩ => ⟨S16384, .i1⟩
  | .hbm, ⟨117, _⟩ => ⟨S_, .i32⟩
  | .hbm, ⟨118, _⟩ => ⟨S16384, .i32⟩
  | .hbm, ⟨119, _⟩ => ⟨S16384, .i32⟩
  | .hbm, ⟨120, _⟩ => ⟨S16384, .i32⟩
  | .hbm, ⟨121, _⟩ => ⟨S16384x1, .i32⟩
  | .hbm, ⟨122, _⟩ => ⟨S16384x64, .f32⟩
  | .hbm, ⟨123, _⟩ => ⟨S16384, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2048x64, .f32⟩
  | .local _ .vmem, ⟨49, _⟩ => ⟨S2048x64, .f32⟩
  | .local _ .vmem, ⟨50, _⟩ => ⟨S2048x64, .f32⟩
  | .local _ .vmem, ⟨51, _⟩ => ⟨S2048x64, .f32⟩
  | .local _ .vmem, ⟨52, _⟩ => ⟨S2048, .f32⟩
  | .local _ .vmem, ⟨53, _⟩ => ⟨S2048, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v25_0 : Ref sig .tc := ⟨.hbm, 37, rfl⟩
abbrev main_v25_1 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_v47_0 : Ref sig .tc := ⟨.hbm, 67, rfl⟩
abbrev main_v47_1 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68_0 : Ref sig .tc := ⟨.hbm, 95, rfl⟩
abbrev main_v68_1 : Ref sig .tc := ⟨.hbm, 96, rfl⟩
abbrev main_v69_0 : Ref sig .tc := ⟨.hbm, 97, rfl⟩
abbrev main_v69_1 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_c_18 : Ref sig .tc := ⟨.hbm, 105, rfl⟩
abbrev main_v74 : Ref sig .tc := ⟨.hbm, 106, rfl⟩
abbrev main_v75 : Ref sig .tc := ⟨.hbm, 107, rfl⟩
abbrev main_c_19 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_20 : Ref sig .tc := ⟨.hbm, 114, rfl⟩
abbrev main_v81 : Ref sig .tc := ⟨.hbm, 115, rfl⟩
abbrev main_v82 : Ref sig .tc := ⟨.hbm, 116, rfl⟩
abbrev main_c_21 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  ![arg0.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  bcast_S_S16384 : S_.BroadcastsInDim S16384 (![] : Fin 0 → Fin S16384.rank)
  bcast_S16384_S16384x1_0 : S16384.BroadcastsInDim S16384x1 (![0] : Fin 1 → Fin S16384x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  inb_S2048_S2048_0 : ∀ a, (![0] : Fin 1 → Nat) a + S2048.size a ≤ S2048.size a
  h_S2048 : 0 < S2048.numel
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  gather_S200000x64_S16384x1_S16384x64_1_0_n_n_0_1_164_wf : GatherDims.WF S200000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S200000x64.size a
  hwx0_1 : ∀ i : grid0.Coords, EltTy.bits .f32 = 32 ∨ (Rect.block (s := S200000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S200000x64.size a
  hwx0_2 : ∀ i : grid0.Coords, EltTy.bits .f32 = 32 ∨ (Rect.block (s := S200000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S200000x64.size a
  hwx0_3 : ∀ i : grid0.Coords, EltTy.bits .f32 = 32 ∨ (Rect.block (s := S200000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S200000x64.size a
  hwx2_0 : ∀ i : grid2.Coords, EltTy.bits .f32 = 32 ∨ (Rect.block (s := S200000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S200000x64.size a
  hwx2_1 : ∀ i : grid2.Coords, EltTy.bits .f32 = 32 ∨ (Rect.block (s := S200000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S200000x64.size a
  hwx2_2 : ∀ i : grid2.Coords, EltTy.bits .f32 = 32 ∨ (Rect.block (s := S200000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S200000x64.size a
  hwx2_3 : ∀ i : grid2.Coords, EltTy.bits .f32 = 32 ∨ (Rect.block (s := S200000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S200000x64.size a
  hwx4_0 : ∀ i : grid4.Coords, EltTy.bits .f32 = 32 ∨ (Rect.block (s := S200000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S200000x64.size a
  hwx4_1 : ∀ i : grid4.Coords, EltTy.bits .f32 = 32 ∨ (Rect.block (s := S200000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S200000x64.size a
  hwx4_2 : ∀ i : grid4.Coords, EltTy.bits .f32 = 32 ∨ (Rect.block (s := S200000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S200000x64.size a
  hwx4_3 : ∀ i : grid4.Coords, EltTy.bits .f32 = 32 ∨ (Rect.block (s := S200000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S16384x64.size a
  hwx6_0 : ∀ i : grid6.Coords, EltTy.bits .f32 = 32 ∨ (Rect.block (s := S16384x64) S2048x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x64.size a ≤ S16384x64.size a
  hwx6_1 : ∀ i : grid6.Coords, EltTy.bits .f32 = 32 ∨ (Rect.block (s := S16384x64) S2048x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048.size a ≤ S16384.size a
  hwx6_2 : ∀ i : grid6.Coords, EltTy.bits .f32 = 32 ∨ (Rect.block (s := S16384) S2048.size (cc6_transform_2 i) (hinb6_2 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S200000x64_S16384x1_S16384x64_1_0_n_n_0_1_164 : GatherDims S200000x64 S16384x1 S16384x64 where
  offsetDims := [1]
  collapsedSliceDims := [0]
  operandBatchingDims := []
  startIndicesBatchingDims := []
  startIndexMap := [0]
  indexVectorDim := 1
  sliceSizes := ![1, 64]
  wf := gather_S200000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24_0) S2000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24_1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S2000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25_1) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24_1) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46_0) S2000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46_1) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25_1) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47_0) S2000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47_1) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v57) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46_1) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68_0) S2000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68_1) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47_1) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69_0) S2000x64.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v69_1) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v80) S2048x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S2048x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v88) S2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S16384 : Shape := ⟨1, ![16384]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩
abbrev S16384x1 : Shape := ⟨2, ![16384, 1]⟩
abbrev S16384x64 : Shape := ⟨2, ![16384, 64]⟩

abbrev nBuf : Space → Nat
  | .hbm => 180
  | .vmem => 0
  | .smem => 0
  | _ => 0

abbrev hbmTy0_0 (i : Nat) : BufTy := match i % 128 with
  | 0 => ⟨S200000x64, .f32⟩
  | 1 => ⟨S100000x64, .f32⟩
  | 2 => ⟨S16384, .i32⟩
  | 3 => ⟨S16384, .i32⟩
  | 4 => ⟨S2x2000000, .i32⟩
  | 5 => ⟨S1x2000000, .i32⟩
  | 6 => ⟨S2000000, .i32⟩
  | 7 => ⟨S1x2000000, .i32⟩
  | 8 => ⟨S2000000, .i32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000x64, .f32⟩
  | 18 => ⟨S_, .f32⟩
  | 19 => ⟨S200000x64, .f32⟩
  | 20 => ⟨S2000000x1, .i32⟩
  | 21 => ⟨S200000x64, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x64, .f32⟩
  | 31 => ⟨S_, .f32⟩
  | 32 => ⟨S100000x64, .f32⟩
  | 33 => ⟨S2000000x1, .i32⟩
  | 34 => ⟨S100000x64, .f32⟩
  | 35 => ⟨S200000x64, .f32⟩
  | 36 => ⟨S_, .f32⟩
  | 37 => ⟨S200000, .f32⟩
  | 38 => ⟨S200000x1, .f32⟩
  | 39 => ⟨S200000x1, .f32⟩
  | 40 => ⟨S_, .f32⟩
  | 41 => ⟨S200000x1, .f32⟩
  | 42 => ⟨S200000x1, .f32⟩
  | 43 => ⟨S200000x64, .f32⟩
  | 44 => ⟨S200000x64, .f32⟩
  | 45 => ⟨S100000x64, .f32⟩
  | 46 => ⟨S_, .f32⟩
  | 47 => ⟨S100000, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S100000x64, .f32⟩
  | 54 => ⟨S100000x64, .f32⟩
  | 55 => ⟨S200000x64, .f32⟩
  | 56 => ⟨S100000x64, .f32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x64, .f32⟩
  | 66 => ⟨S_, .f32⟩
  | 67 => ⟨S200000x64, .f32⟩
  | 68 => ⟨S2000000x1, .i32⟩
  | 69 => ⟨S200000x64, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x64, .f32⟩
  | 79 => ⟨S_, .f32⟩
  | 80 => ⟨S100000x64, .f32⟩
  | 81 => ⟨S2000000x1, .i32⟩
  | 82 => ⟨S100000x64, .f32⟩
  | 83 => ⟨S200000x64, .f32⟩
  | 84 => ⟨S_, .f32⟩
  | 85 => ⟨S200000, .f32⟩
  | 86 => ⟨S200000x1, .f32⟩
  | 87 => ⟨S200000x1, .f32⟩
  | 88 => ⟨S_, .f32⟩
  | 89 => ⟨S200000x1, .f32⟩
  | 90 => ⟨S200000x1, .f32⟩
  | 91 => ⟨S200000x64, .f32⟩
  | 92 => ⟨S200000x64, .f32⟩
  | 93 => ⟨S100000x64, .f32⟩
  | 94 => ⟨S_, .f32⟩
  | 95 => ⟨S100000, .f32⟩
  | 96 => ⟨S100000x1, .f32⟩
  | 97 => ⟨S100000x1, .f32⟩
  | 98 => ⟨S_, .f32⟩
  | 99 => ⟨S100000x1, .f32⟩
  | 100 => ⟨S100000x1, .f32⟩
  | 101 => ⟨S100000x64, .f32⟩
  | 102 => ⟨S100000x64, .f32⟩
  | 103 => ⟨S200000x64, .f32⟩
  | 104 => ⟨S100000x64, .f32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S2000000x1, .i32⟩
  | 113 => ⟨S2000000x64, .f32⟩
  | 114 => ⟨S_, .f32⟩
  | 115 => ⟨S200000x64, .f32⟩
  | 116 => ⟨S2000000x1, .i32⟩
  | 117 => ⟨S200000x64, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x64, .f32⟩
  | 127 => ⟨S_, .f32⟩
  | _ => ⟨S200000x64, .f32⟩

abbrev hbmTy0_1 (i : Nat) : BufTy := match i % 128 with
  | 0 => ⟨S100000x64, .f32⟩
  | 1 => ⟨S2000000x1, .i32⟩
  | 2 => ⟨S100000x64, .f32⟩
  | 3 => ⟨S200000x64, .f32⟩
  | 4 => ⟨S_, .f32⟩
  | 5 => ⟨S200000, .f32⟩
  | 6 => ⟨S200000x1, .f32⟩
  | 7 => ⟨S200000x1, .f32⟩
  | 8 => ⟨S_, .f32⟩
  | 9 => ⟨S200000x1, .f32⟩
  | 10 => ⟨S200000x1, .f32⟩
  | 11 => ⟨S200000x64, .f32⟩
  | 12 => ⟨S200000x64, .f32⟩
  | 13 => ⟨S100000x64, .f32⟩
  | 14 => ⟨S_, .f32⟩
  | 15 => ⟨S100000, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S100000x64, .f32⟩
  | 22 => ⟨S100000x64, .f32⟩
  | 23 => ⟨S200000x64, .f32⟩
  | 24 => ⟨S100000x64, .f32⟩
  | 25 => ⟨S_, .f32⟩
  | 26 => ⟨S200000x64, .f32⟩
  | 27 => ⟨S200000x64, .f32⟩
  | 28 => ⟨S_, .f32⟩
  | 29 => ⟨S100000x64, .f32⟩
  | 30 => ⟨S100000x64, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x64, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S16384x64, .f32⟩
  | 49 => ⟨S16384x64, .f32⟩
  | 50 => ⟨S_, .f32⟩
  | 51 => ⟨S16384, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_18 : Ref sig .tc := ⟨.hbm, 105, rfl⟩
abbrev main_v80 : Ref sig .tc := ⟨.hbm, 106, rfl⟩
abbrev main_v81 : Ref sig .tc := ⟨.hbm, 107, rfl⟩
abbrev main_c_19 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_20 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_21 : Ref sig .tc := ⟨.hbm, 118, rfl⟩
abbrev main_v90 : Ref sig .tc := ⟨.hbm, 119, rfl⟩
abbrev main_v91 : Ref sig .tc := ⟨.hbm, 120, rfl⟩
abbrev main_c_22 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_23 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_24 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_25 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_26 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_27 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_28 : Ref sig .tc := ⟨.hbm, 153, rfl⟩
abbrev main_v118 : Ref sig .tc := ⟨.hbm, 154, rfl⟩
abbrev main_v119 : Ref sig .tc := ⟨.hbm, 155, rfl⟩
abbrev main_cst_29 : Ref sig .tc := ⟨.hbm, 156, rfl⟩
abbrev main_v120 : Ref sig .tc := ⟨.hbm, 157, rfl⟩
abbrev main_v121 : Ref sig .tc := ⟨.hbm, 158, rfl⟩
abbrev main_c_30 : Ref sig .tc := ⟨.hbm, 159, rfl⟩
abbrev main_v122 : Ref sig .tc := ⟨.hbm, 160, rfl⟩
abbrev main_v123 : Ref sig .tc := ⟨.hbm, 161, rfl⟩
abbrev main_c_31 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_32 : Ref sig .tc := ⟨.hbm, 168, rfl⟩
abbrev main_v129 : Ref sig .tc := ⟨.hbm, 169, rfl⟩
abbrev main_v130 : Ref sig .tc := ⟨.hbm, 170, rfl⟩
abbrev main_c_33 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_34 : Ref sig .tc := ⟨.hbm, 178, rfl⟩
abbrev main_v137 : Ref sig .tc := ⟨.hbm, 179, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  bcast_S_S100000x64 : S_.BroadcastsInDim S100000x64 (![] : Fin 0 → Fin S100000x64.rank)
  reducesTo_S200000x64_S200000_d1 : S200000x64.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  gather_S200000x64_S16384x1_S16384x64_1_0_n_n_0_1_164_wf : GatherDims.WF S200000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S200000x64_S16384x1_S16384x64_1_0_n_n_0_1_164 : GatherDims S200000x64 S16384x1 S16384x64 where
  offsetDims := [1]
  collapsedSliceDims := [0]
  operandBatchingDims := []
  startIndicesBatchingDims := []
  startIndexMap := [0]
  indexVectorDim := 1
  sliceSizes := ![1, 64]
  wf := gather_S200000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf

class Facts : Prop extends Facts₀ where

variable [Facts]
-- ==== Proof.Stages.lean ====
/-
  The computation both programs perform, stage by stage, each stage a function of whole arrays.

  An edge list [2, E] gives a user end and an item end per edge.  One layer sends every item's row along its edges
  and adds what arrives at each user (and the same the other way round); each node's sum of arrivals is then divided
  by its Euclidean length, bounded below by a small constant.  Three layers are stacked; the node's starting row and
  its three normalized rows are added and divided by four; finally the selected users' and items' rows are
  multiplied entry by entry and each product row is summed.
-/
import proofs.«149339_j41137196761091_1_alg».proof.Proof.Gen.ReferenceIdeal
import Idealize.ShloMosaic.PureOps

noncomputable section

namespace Cert.Stages

open Idealize.ShloMosaic Cert.ReferenceIdeal Cert.ReferenceIdeal.Gen

variable {F : FTy → Type} [FloatOps F]

/-- The user end of every edge: row 0 of the edge list. -/
def edgeUsers (e : IVec S2x2000000 32) : IVec S2000000 32 :=
  shapeCast S2000000 (extractStridedSlice S1x2000000 ![0, 0] e slices_S2x2000000_S1x2000000_0_0) shapeCasts_S1x2000000_S2000000

/-- The item end of every edge: row 1 of the edge list. -/
def edgeItems (e : IVec S2x2000000 32) : IVec S2000000 32 :=
  shapeCast S2000000 (extractStridedSlice S1x2000000 ![1, 0] e slices_S2x2000000_S1x2000000_1_0) shapeCasts_S1x2000000_S2000000

/-- User numbers as a column of row indices into a table of 200000 rows, a negative number counted from the end. -/
def userRows (k : IVec S2000000 32) : IVec S2000000x1 32 :=
  broadcastInDim S2000000x1 ![0] bcast_S2000000_S2000000x1_0 (select (cmpi .slt k (broadcastInDim S2000000 ![] bcast_S_S2000000 (constantI S_ 32 0#32))) (addi k (broadcastInDim S2000000 ![] bcast_S_S2000000 (constantI S_ 32 200000#32))) k)

/-- Item numbers as a column of row indices into a table of 100000 rows, a negative number counted from the end. -/
def itemRows (k : IVec S2000000 32) : IVec S2000000x1 32 :=
  broadcastInDim S2000000x1 ![0] bcast_S2000000_S2000000x1_0 (select (cmpi .slt k (broadcastInDim S2000000 ![] bcast_S_S2000000 (constantI S_ 32 0#32))) (addi k (broadcastInDim S2000000 ![] bcast_S_S2000000 (constantI S_ 32 100000#32))) k)

/-- What arrives at each user: along every edge the item end's row, added up at the user end. -/
def aggUsers (items : FVec F S100000x64 .f32) (u i : IVec S2000000 32) : FVec F S200000x64 .f32 :=
  Host.scatterAdd scatter_S200000x64_S2000000x1_S2000000x64_1_0_0_1 (broadcastInDim S200000x64 ![] bcast_S_S200000x64 (constant S_ .f32 0x00000000#32)) (broadcastInDim S2000000x1 ![0] bcast_S2000000_S2000000x1_0 u) (Host.gather gather_S100000x64_S2000000x1_S2000000x64_1_0_n_n_0_1_164 items (itemRows i))

/-- What arrives at each item: along every edge the user end's row, added up at the item end. -/
def aggItems (users : FVec F S200000x64 .f32) (u i : IVec S2000000 32) : FVec F S100000x64 .f32 :=
  Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 i) (Host.gather gather_S200000x64_S2000000x1_S2000000x64_1_0_n_n_0_1_164 users (userRows u))

/-- Every row of a user table divided by its Euclidean length, the length bounded below by the small constant. -/
def normUsers (x : FVec F S200000x64 .f32) : FVec F S200000x64 .f32 :=
  Host.divf x (broadcastInDim S200000x64 ![0, 1] bcast_S200000x1_S200000x64_0_1 (maximumf (Host.sqrt (broadcastInDim S200000x1 ![0] bcast_S200000_S200000x1_0 (Host.reduceAdd (mulf x x) (constant S_ .f32 0x00000000#32) reducesTo_S200000x64_S200000_d1 h_S_))) (broadcastInDim S200000x1 ![] bcast_S_S200000x1 (constant S_ .f32 0x2B8CBCCC#32))))

/-- Every row of an item table divided by its Euclidean length, the length bounded below by the small constant. -/
def normItems (x : FVec F S100000x64 .f32) : FVec F S100000x64 .f32 :=
  Host.divf x (broadcastInDim S100000x64 ![0, 1] bcast_S100000x1_S100000x64_0_1 (maximumf (Host.sqrt (broadcastInDim S100000x1 ![0] bcast_S100000_S100000x1_0 (Host.reduceAdd (mulf x x) (constant S_ .f32 0x00000000#32) reducesTo_S100000x64_S100000_d1 h_S_))) (broadcastInDim S100000x1 ![] bcast_S_S100000x1 (constant S_ .f32 0x2B8CBCCC#32))))

/-- The selected users' rows of a user table divided by four. -/
def pickUsers (s : FVec F S200000x64 .f32) (k : IVec S16384 32) : FVec F S16384x64 .f32 :=
  Host.gather gather_S200000x64_S16384x1_S16384x64_1_0_n_n_0_1_164 (Host.divf s (broadcastInDim S200000x64 ![] bcast_S_S200000x64 (constant S_ .f32 0x40800000#32))) (broadcastInDim S16384x1 ![0] bcast_S16384_S16384x1_0 (select (cmpi .slt k (broadcastInDim S16384 ![] bcast_S_S16384 (constantI S_ 32 0#32))) (addi k (broadcastInDim S16384 ![] bcast_S_S16384 (constantI S_ 32 200000#32))) k))

/-- The selected items' rows of an item table divided by four. -/
def pickItems (s : FVec F S100000x64 .f32) (k : IVec S16384 32) : FVec F S16384x64 .f32 :=
  Host.gather gather_S100000x64_S16384x1_S16384x64_1_0_n_n_0_1_164 (Host.divf s (broadcastInDim S100000x64 ![] bcast_S_S100000x64 (constant S_ .f32 0x40800000#32))) (broadcastInDim S16384x1 ![0] bcast_S16384_S16384x1_0 (select (cmpi .slt k (broadcastInDim S16384 ![] bcast_S_S16384 (constantI S_ 32 0#32))) (addi k (broadcastInDim S16384 ![] bcast_S_S16384 (constantI S_ 32 100000#32))) k))

/-- Row by row, the sum of the products of two tables' entries. -/
def rowDot (a b : FVec F S16384x64 .f32) : FVec F S16384 .f32 :=
  Host.reduceAdd (mulf a b) (constant S_ .f32 0x00000000#32) reducesTo_S16384x64_S16384_d1 h_S_

/-- The first layer's user rows: from the starting item table. -/
def users1 (a1 : FVec F S100000x64 .f32) (e : IVec S2x2000000 32) : FVec F S200000x64 .f32 :=
  normUsers (aggUsers a1 (edgeUsers e) (edgeItems e))

/-- The first layer's item rows: from the starting user table. -/
def items1 (a0 : FVec F S200000x64 .f32) (e : IVec S2x2000000 32) : FVec F S100000x64 .f32 :=
  normItems (aggItems a0 (edgeUsers e) (edgeItems e))

/-- The second layer's user rows: from the first layer's item rows. -/
def users2 (a0 : FVec F S200000x64 .f32) (e : IVec S2x2000000 32) : FVec F S200000x64 .f32 :=
  normUsers (aggUsers (items1 a0 e) (edgeUsers e) (edgeItems e))

/-- The second layer's item rows: from the first layer's user rows. -/
def items2 (a1 : FVec F S100000x64 .f32) (e : IVec S2x2000000 32) : FVec F S100000x64 .f32 :=
  normItems (aggItems (users1 a1 e) (edgeUsers e) (edgeItems e))

/-- The third layer's user rows: from the second layer's item rows. -/
def users3 (a1 : FVec F S100000x64 .f32) (e : IVec S2x2000000 32) : FVec F S200000x64 .f32 :=
  normUsers (aggUsers (items2 a1 e) (edgeUsers e) (edgeItems e))

/-- The third layer's item rows: from the second layer's user rows. -/
def items3 (a0 : FVec F S200000x64 .f32) (e : IVec S2x2000000 32) : FVec F S100000x64 .f32 :=
  normItems (aggItems (users2 a0 e) (edgeUsers e) (edgeItems e))

/-- A user's starting row plus its three layers' rows. -/
def userSum (a0 : FVec F S200000x64 .f32) (a1 : FVec F S100000x64 .f32) (e : IVec S2x2000000 32) : FVec F S200000x64 .f32 :=
  addf (addf (addf a0 (users1 a1 e)) (users2 a0 e)) (users3 a1 e)

/-- An item's starting row plus its three layers' rows. -/
def itemSum (a0 : FVec F S200000x64 .f32) (a1 : FVec F S100000x64 .f32) (e : IVec S2x2000000 32) : FVec F S100000x64 .f32 :=
  addf (addf (addf a1 (items1 a0 e)) (items2 a1 e)) (items3 a0 e)

/-- The whole computation: for each selected pair, the inner product of the user's and the item's averaged rows. -/
def scores (a0 : FVec F S200000x64 .f32) (a1 : FVec F S100000x64 .f32) (ku ki : IVec S16384 32) (e : IVec S2x2000000 32) : FVec F S16384 .f32 :=
  rowDot (pickUsers (userSum a0 a1 e) ku) (pickItems (itemSum a0 a1 e) ki)

end Cert.Stages

end
-- ==== Proof.KernelRun.lean ====
import proofs.«149339_j41137196761091_1_alg».proof.Proof.Gen.KernelIdeal.Frame
import Idealize.ShloMosaic.PureOps.Ideal

set_option maxRecDepth 16384

noncomputable section

namespace Cert.KernelIdeal.Result

open Idealize.ShloMosaic Idealize.ShloMosaic.TcCoe Idealize.SL.Sem Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any launch memory with zero counters every weakly fair execution on the cores terminates without fault; in every
    final state the result buffer holds the last segment boundary's contents and the five argument arrays are as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v88) = W11 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v88 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c)⟩)

end Cert.KernelIdeal.Result

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.RowUnit.lean ====
/-
  One row of a table divided by its Euclidean length, the length bounded below by a constant: what an entry of the
  result is, and that the two spellings of the operation compute it.

  Both spellings square the entries, sum each row's squares, take the root, bound it below and divide.  They differ
  only in how the row's sum is carried back to the table's shape: as a column [a, 1] broadcast along the row in
  both, but through different layout operations, and the sum itself once starts from a zero initial value and once
  from nothing.  At an entry (p, q) each is the entry divided by the bounded root of the sum of row p's squares.
-/
import Idealize.ShloMosaic.PureOps.Ideal.Laws
import Idealize.ShloMosaic.Lib.ValueIdx
import Idealize.ShloMosaic.Lib.IdealHost
import Idealize.ShloMosaic.Lib.Pipeline.Value
import proofs.«149339_j41137196761091_1_alg».proof.Proof.LibColumn
import proofs.«149339_j41137196761091_1_alg».proof.Proof.LibLaneSum
import proofs.«149339_j41137196761091_1_alg».proof.Proof.LibBroadcasts

noncomputable section

namespace Cert.RowUnit

open Idealize.ShloMosaic Idealize.ShloMosaic.ValueIdx

/-- Entry `q` of a row divided by the row's length: the root of the sum of the row's squares, bounded below by `ε`. -/
def unit (ε : EReal) (row : Fin 64 → EReal) (q : Fin 64) : EReal :=
  Ideal.div (row q) (max (Ideal.sqrt (∑ d : Fin 64, row d * row d)) ε)

/-- The entry depends on the row only. -/
theorem unit_congr (ε : EReal) {r r' : Fin 64 → EReal} (h : ∀ d, r d = r' d) (q : Fin 64) : unit ε r q = unit ε r' q := by
  rw [show r = r' from funext h]

/-- A column [a, 1] laid along the rows of [a, b]: at (p, q) the column's entry of row p. -/
theorem alongRow_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim (s := ⟨2, ![a, 1]⟩) ⟨2, ![a, b]⟩ ![0, 1] h v (ix2 p q) = v (ix2 p (0 : Fin 1)) := by
  refine broadcastInDim_apply ![0, 1] h v (ix2 p q) (ix2 p (0 : Fin 1)) (fun ax => ?_)
  match ax with
  | ⟨0, _⟩ =>
    show p.val = if a = 1 then 0 else p.val
    by_cases ha : a = 1
    · rw [if_pos ha]; have := p.isLt; omega
    · rw [if_neg ha]
  | ⟨1, _⟩ =>
    show (0 : ℕ) = if (1 : ℕ) = 1 then 0 else q.val
    rw [if_pos rfl]

/-- The host spelling at an entry. -/
theorem host_apply {a : ℕ} (x : FVec Ideal ⟨2, ![a, 64]⟩ .f32)
    (hr' : (⟨2, ![a, 64]⟩ : Shape).ReducesTo [1] ⟨1, ![a]⟩) (hr : (⟨2, ![a, 64]⟩ : Shape).Reduces [1] ⟨1, ![a]⟩)
    (hS : 0 < (⟨0, ![]⟩ : Shape).numel)
    (hc : (⟨1, ![a]⟩ : Shape).BroadcastsInDim ⟨2, ![a, 1]⟩ ![0])
    (he : (⟨0, ![]⟩ : Shape).BroadcastsInDim ⟨2, ![a, 1]⟩ ![])
    (hb : (⟨2, ![a, 1]⟩ : Shape).BroadcastsInDim ⟨2, ![a, 64]⟩ ![0, 1])
    (p : Fin a) (q : Fin 64) :
    Host.divf x (broadcastInDim (s := ⟨2, ![a, 1]⟩) ⟨2, ![a, 64]⟩ ![0, 1] hb (maximumf (Host.sqrt (broadcastInDim (s := ⟨1, ![a]⟩) ⟨2, ![a, 1]⟩ ![0] hc
        (Host.reduceAdd (mulf x x) (constant (F := Ideal) ⟨0, ![]⟩ .f32 0x00000000#32) hr' hS)))
        (broadcastInDim (s := ⟨0, ![]⟩) ⟨2, ![a, 1]⟩ ![] he (constant (F := Ideal) ⟨0, ![]⟩ .f32 0x2B8CBCCC#32)))) (ix2 p q)
      = unit (Ideal.ofBits .f32 0x2B8CBCCC#32) (fun d => x (ix2 p d)) q := by
  show Ideal.div (x (ix2 p q)) _ = Ideal.div (x (ix2 p q)) _
  refine congrArg (Ideal.div (x (ix2 p q))) ?_
  refine (alongRow_apply _ hb p q).trans ?_
  show max (Ideal.sqrt (broadcastInDim (s := ⟨1, ![a]⟩) ⟨2, ![a, 1]⟩ ![0] hc _ (ix2 p (0 : Fin 1))))
      (broadcastInDim (s := ⟨0, ![]⟩) ⟨2, ![a, 1]⟩ ![] he _ (ix2 p (0 : Fin 1))) = _
  rw [Cert.Broadcasts.column_apply, Cert.Broadcasts.splat_apply]
  show max (Ideal.sqrt (Ideal.hostReduceAdd hr' (mulf x x) (Ideal.ofBits .f32 0x00000000#32) (ix1 p))) (Ideal.ofBits .f32 0x2B8CBCCC#32) = _
  rw [Ideal.hostReduceAdd_single hr' hr, Ideal.ofBits_zero_f32, zero_add]
  refine congrArg (fun s => max (Ideal.sqrt s) _) ?_
  refine Finset.sum_congr rfl fun d _ => ?_
  exact congrArg (fun i => x i * x i)
    (show hr.lift (ix1 p) d = ix2 p d from funext fun ax => Fin.ext (by match ax with | ⟨0, _⟩ => rfl | ⟨1, _⟩ => rfl))

/-- The lane spelling (on a block of rows) at an entry. -/
theorem lanes_apply {a : ℕ} (x : FVec Ideal ⟨2, ![a, 64]⟩ .f32)
    (hid : (⟨2, ![a, 64]⟩ : Shape).ShapeCasts ⟨2, ![a, 64]⟩)
    (hr : (⟨2, ![a, 64]⟩ : Shape).Reduces [1] ⟨1, ![a]⟩) (hφ : FKind.Formats .f32)
    (hacc : (0x00000000#32 : BitVec FTy.f32.bits) = FKind.add.neutral .f32 hφ)
    (hcol : (⟨1, ![a]⟩ : Shape).ShapeCasts ⟨2, ![a, 1]⟩)
    (hbc : (⟨2, ![a, 1]⟩ : Shape).Broadcasts ⟨2, ![a, 64]⟩) (p : Fin a) (q : Fin 64) :
    divf (shapeCast ⟨2, ![a, 64]⟩ x hid) (broadcastTo ⟨2, ![a, 64]⟩ (maximumf (sqrt (shapeCast ⟨2, ![a, 1]⟩
        (multiReduction .add [1] ⟨1, ![a]⟩ (mulf (shapeCast ⟨2, ![a, 64]⟩ x hid) (shapeCast ⟨2, ![a, 64]⟩ x hid)) 0x00000000#32 hr hφ hacc) hcol))
        (broadcast ⟨2, ![a, 1]⟩ (Scalar.ofBits (F := Ideal) .f32 0x2B8CBCCC#32))) hbc) (ix2 p q)
      = unit (Ideal.ofBits .f32 0x2B8CBCCC#32) (fun d => x (ix2 p d)) q := by
  rw [shapeCast_self]
  show Ideal.div (x (ix2 p q)) _ = Ideal.div (x (ix2 p q)) _
  refine congrArg (Ideal.div (x (ix2 p q))) ?_
  refine (Cert.GraphConv.Column.broadcastTo_a1_ab_apply _ hbc p q).trans ?_
  show max (Ideal.sqrt (shapeCast ⟨2, ![a, 1]⟩ _ hcol (ix2 p (0 : Fin 1)))) (Ideal.ofBits .f32 0x2B8CBCCC#32) = _
  rw [Cert.GraphConv.Column.shapeCast_a_a1_apply, Cert.LaneSum.sum_last2]
  rfl

end Cert.RowUnit

end
-- ==== Proof.NormParts.lean ====
/-
  The two places one normalized row is computed, each read at an entry: a block of 2000 rows in the lanes' spelling
  (the stored values of the kernel body), and a whole user or item table in the host's spelling.  Both are the entry
  divided by the bounded length of its row; the second stored value adds the running sum's entry.
-/
import proofs.«149339_j41137196761091_1_alg».proof.Proof.Gen.KernelIdeal.Skeleton
import proofs.«149339_j41137196761091_1_alg».proof.Proof.Gen.KernelIdeal
import proofs.«149339_j41137196761091_1_alg».proof.Proof.Stages
import proofs.«149339_j41137196761091_1_alg».proof.Proof.RowUnit

noncomputable section

namespace Cert.NormParts

open Idealize.ShloMosaic Idealize.ShloMosaic.ValueIdx

/-- The lower bound of a row's length: the constant both programs carry. -/
abbrev eps : EReal := Ideal.ofBits .f32 0x2B8CBCCC#32

/-- A block stored whole starts at offset zero on both axes. -/
theorem hz : (![0, 0] : Fin 2 → Nat) = fun _ => 0 := funext fun a => by fin_cases a <;> rfl

section Block
open Cert.KernelIdeal Cert.KernelIdeal.Gen

/-- The first stored value of a block at an entry: the entry divided by its row's bounded length. -/
theorem pay1_apply (x0 : Vec Ideal S2000x64 .f32) (p : Fin 2000) (q : Fin 64) :
    k0_pay1 (F := Ideal) x0 (ix2 p q) = Cert.RowUnit.unit eps (fun d => x0 (ix2 p d)) q := by
  unfold k0_pay1
  exact Cert.RowUnit.lanes_apply x0 _ _ _ _ _ _ p q

theorem pay1_idx (x0 : Vec Ideal S2000x64 .f32) (j : S2000x64.Idx) :
    k0_pay1 (F := Ideal) x0 j = Cert.RowUnit.unit eps (fun d => x0 (ix2 (j 0) d)) (j 1) := by
  exact (congrArg (k0_pay1 (F := Ideal) x0) (eq_ix2 j)).trans (pay1_apply x0 (j 0) (j 1))

/-- The second stored value at an entry: the running sum's entry plus the first stored value's. -/
theorem pay2_idx (x0 x1 : Vec Ideal S2000x64 .f32) (j : S2000x64.Idx) :
    k0_pay2 (F := Ideal) x0 x1 j = x1 j + Cert.RowUnit.unit eps (fun d => x0 (ix2 (j 0) d)) (j 1) := by
  unfold k0_pay2
  show x1 j + k0_pay1 (F := Ideal) x0 j = _
  rw [pay1_idx]

/-- The six normalizing bodies store the same two values (the later layers re-cast the running sum's block to its own
    shape first, which changes nothing). -/
theorem pay1_1 : k1_pay1 (F := Ideal) = k0_pay1 := rfl
theorem pay1_2 : k2_pay1 (F := Ideal) = k0_pay1 := rfl
theorem pay1_3 : k3_pay1 (F := Ideal) = k0_pay1 := rfl
theorem pay1_4 : k4_pay1 (F := Ideal) = k0_pay1 := rfl
theorem pay1_5 : k5_pay1 (F := Ideal) = k0_pay1 := rfl
theorem pay2_1 : k1_pay2 (F := Ideal) = k0_pay2 := by
  funext x0 x1
  show addf x1 (k1_pay1 (F := Ideal) x0) = addf x1 (k0_pay1 (F := Ideal) x0)
  rw [pay1_1]
theorem pay2_2 : k2_pay2 (F := Ideal) = k0_pay2 := by
  funext x0 x1
  show addf (shapeCast S2000x64 x1 shapeCasts_S2000x64_S2000x64) (k2_pay1 (F := Ideal) x0) = addf x1 (k0_pay1 (F := Ideal) x0)
  rw [shapeCast_self, pay1_2]
theorem pay2_3 : k3_pay2 (F := Ideal) = k0_pay2 := by
  funext x0 x1
  show addf (shapeCast S2000x64 x1 shapeCasts_S2000x64_S2000x64) (k3_pay1 (F := Ideal) x0) = addf x1 (k0_pay1 (F := Ideal) x0)
  rw [shapeCast_self, pay1_3]
theorem pay2_4 : k4_pay2 (F := Ideal) = k0_pay2 := by
  funext x0 x1
  show addf (shapeCast S2000x64 x1 shapeCasts_S2000x64_S2000x64) (k4_pay1 (F := Ideal) x0) = addf x1 (k0_pay1 (F := Ideal) x0)
  rw [shapeCast_self, pay1_4]
theorem pay2_5 : k5_pay2 (F := Ideal) = k0_pay2 := by
  funext x0 x1
  show addf (shapeCast S2000x64 x1 shapeCasts_S2000x64_S2000x64) (k5_pay1 (F := Ideal) x0) = addf x1 (k0_pay1 (F := Ideal) x0)
  rw [shapeCast_self, pay1_5]

end Block

section Whole
open Cert.ReferenceIdeal Cert.ReferenceIdeal.Gen

/-- A normalized user table at an entry. -/
theorem normUsers_idx (X : FVec Ideal S200000x64 .f32) (i : S200000x64.Idx) :
    Cert.Stages.normUsers (F := Ideal) X i = Cert.RowUnit.unit eps (fun d => X (ix2 (i 0) d)) (i 1) := by
  refine (congrArg (Cert.Stages.normUsers (F := Ideal) X) (eq_ix2 i)).trans ?_
  unfold Cert.Stages.normUsers
  exact Cert.RowUnit.host_apply X _ (by decide) _ _ _ _ (i 0) (i 1)

/-- A normalized item table at an entry. -/
theorem normItems_idx (X : FVec Ideal S100000x64 .f32) (i : S100000x64.Idx) :
    Cert.Stages.normItems (F := Ideal) X i = Cert.RowUnit.unit eps (fun d => X (ix2 (i 0) d)) (i 1) := by
  refine (congrArg (Cert.Stages.normItems (F := Ideal) X) (eq_ix2 i)).trans ?_
  unfold Cert.Stages.normItems
  exact Cert.RowUnit.host_apply X _ (by decide) _ _ _ _ (i 0) (i 1)

end Whole

end Cert.NormParts

end
-- ==== Proof.Norm0.lean ====
/-
  Layer 1, the user table: what the tiled pass leaves in its two output arrays.

  The pass walks the 200000 rows in 100 blocks of 2000.  At block t it reads rows 2000 t … 2000 t + 1999 of the
  summed arrivals and of the running sum, writes each arrival row divided by its bounded length to the first output
  and the running sum's row plus that to the second, at the same rows.  An entry of a normalized row depends on its own
  row only, so block t of either output is block t of the whole-table function; the 100 blocks tile the table, hence
  the first output ends as the normalized table and the second as the running sum plus it.
-/
import proofs.«149339_j41137196761091_1_alg».proof.Proof.Gen.KernelIdeal.Frame
import proofs.«149339_j41137196761091_1_alg».proof.Proof.Stages
import proofs.«149339_j41137196761091_1_alg».proof.Proof.NormParts
import Idealize.ShloMosaic.PureOps.Ideal
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- At point t every window's block is row block t, column block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back to the first output is block t of the normalized table. -/
theorem wrote0_2 (c : Dev nD) (t : Fin cfg0.N) :
    (dat0 (F := Ideal) V c).flushed 2 t
      = ((cfg0.win 2).blk t).view.read (Elt Ideal) (Cert.Stages.normUsers (F := Ideal) (V c main_v13)) := by
  show (cfg0.win 2).cut (grid0.coords t) ((dat0 (F := Ideal) V c).after 2 t) = _
  rw [after0_2]
  unfold out0_2
  rw [View.canon_unit_zero Cert.NormParts.hz]
  simp only [View.ld_unit_zero (S := S2000x64) Cert.NormParts.hz]
  obtain ⟨e00, e01, e10, e11, e20, e21, e30, e31⟩ := idx0 t
  funext j
  have hj0 : (j 0).val < 2000 := (j 0).isLt
  have hj1 : (j 1).val < 64 := (j 1).isLt
  show k0_pay1 (F := Ideal) (iblk0 V c 0 t) j
      = Cert.Stages.normUsers (F := Ideal) (V c main_v13) (((cfg0.win 2).blk t).view.emb j)
  refine (Cert.NormParts.pay1_idx (iblk0 V c 0 t) j).trans ?_
  refine Eq.trans ?_ (Cert.NormParts.normUsers_idx (V c main_v13) (((cfg0.win 2).blk t).view.emb j)).symm
  have h1 : (((cfg0.win 2).blk t).view.emb j) 1 = j 1 :=
    Fin.ext (by show win0_2.index t (1 : Fin 2) * 64 + 1 * (j 1).val = (j 1).val; omega)
  rw [h1]
  refine Cert.RowUnit.unit_congr _ (fun d => ?_) _
  show V c main_v13 (((cfg0.win 0).blk t).view.emb (ix2 (j 0) d)) = V c main_v13 (ix2 ((((cfg0.win 2).blk t).view.emb j) 0) d)
  refine congrArg (V c main_v13) (funext fun a => Fin.ext ?_)
  match a with
  | ⟨0, _⟩ => show win0_0.index t (0 : Fin 2) * 2000 + 1 * (j 0).val = win0_2.index t (0 : Fin 2) * 2000 + 1 * (j 0).val; omega
  | ⟨1, _⟩ => show win0_0.index t (1 : Fin 2) * 64 + 1 * d.val = d.val; omega

/-- What point t writes back to the second output is block t of the running sum plus the normalized table. -/
theorem wrote0_3 (c : Dev nD) (t : Fin cfg0.N) :
    (dat0 (F := Ideal) V c).flushed 3 t
      = ((cfg0.win 3).blk t).view.read (Elt Ideal) (addf (V c main_arg0) (Cert.Stages.normUsers (F := Ideal) (V c main_v13))) := by
  show (cfg0.win 3).cut (grid0.coords t) ((dat0 (F := Ideal) V c).after 3 t) = _
  rw [after0_3]
  unfold out0_3
  rw [View.canon_unit_zero Cert.NormParts.hz]
  simp only [View.ld_unit_zero (S := S2000x64) Cert.NormParts.hz]
  obtain ⟨e00, e01, e10, e11, e20, e21, e30, e31⟩ := idx0 t
  funext j
  have hj0 : (j 0).val < 2000 := (j 0).isLt
  have hj1 : (j 1).val < 64 := (j 1).isLt
  show k0_pay2 (F := Ideal) (iblk0 V c 0 t) (iblk0 V c 1 t) j
      = addf (V c main_arg0) (Cert.Stages.normUsers (F := Ideal) (V c main_v13)) (((cfg0.win 3).blk t).view.emb j)
  refine (Cert.NormParts.pay2_idx (iblk0 V c 0 t) (iblk0 V c 1 t) j).trans ?_
  have hsum : iblk0 V c 1 t j = V c main_arg0 (((cfg0.win 3).blk t).view.emb j) := by
    show V c main_arg0 (((cfg0.win 1).blk t).view.emb j) = V c main_arg0 (((cfg0.win 3).blk t).view.emb j)
    refine congrArg (V c main_arg0) (funext fun a => Fin.ext ?_)
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 64 + 1 * (j 1).val = win0_3.index t (1 : Fin 2) * 64 + 1 * (j 1).val; omega
  have hnorm : Cert.RowUnit.unit Cert.NormParts.eps (fun d => iblk0 V c 0 t (ix2 (j 0) d)) (j 1)
      = Cert.Stages.normUsers (F := Ideal) (V c main_v13) (((cfg0.win 3).blk t).view.emb j) := by
    refine Eq.trans ?_ (Cert.NormParts.normUsers_idx (V c main_v13) (((cfg0.win 3).blk t).view.emb j)).symm
    have h1 : (((cfg0.win 3).blk t).view.emb j) 1 = j 1 :=
      Fin.ext (by show win0_3.index t (1 : Fin 2) * 64 + 1 * (j 1).val = (j 1).val; omega)
    rw [h1]
    refine Cert.RowUnit.unit_congr _ (fun d => ?_) _
    show V c main_v13 (((cfg0.win 0).blk t).view.emb (ix2 (j 0) d)) = V c main_v13 (ix2 ((((cfg0.win 3).blk t).view.emb j) 0) d)
    refine congrArg (V c main_v13) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 64 + 1 * d.val = d.val; omega
  exact congrArg₂ (fun a b : EReal => a + b) hsum hnorm

/-- Row r of the table lies in the block of point r / 2000 of output 1. -/
theorem tiles0_2 (i : S200000x64.Idx) :
    ∃ t : Fin cfg0.N, (cfg0.win 2).flush t = true ∧ i ∈ ((cfg0.win 2).blk t).view.set := by
  have hi0 : (i 0).val < 200000 := (i 0).isLt
  have hi1 : (i 1).val < 64 := (i 1).isLt
  have hlt : (i 0).val / 2000 < cfg0.N := by rw [show cfg0.N = 100 from N_0]; omega
  obtain ⟨e00, e01, e10, e11, e20, e21, e30, e31⟩ := idx0 ⟨(i 0).val / 2000, hlt⟩
  have er : win0_2.index ⟨(i 0).val / 2000, hlt⟩ (0 : Fin 2) = (i 0).val / 2000 := e20
  refine ⟨⟨(i 0).val / 2000, hlt⟩, flush0_2 _, ?_⟩
  show i ∈ ((View.whole main_v24_0).slice (win0_2.rect ⟨(i 0).val / 2000, hlt⟩)).set
  rw [View.set_slice_whole, Rect.mem_set_unit]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [er]; omega
  | ⟨1, _⟩ =>
    show win0_2.index ⟨(i 0).val / 2000, hlt⟩ (1 : Fin 2) * 64 ≤ (i 1).val
      ∧ (i 1).val < win0_2.index ⟨(i 0).val / 2000, hlt⟩ (1 : Fin 2) * 64 + 64
    rw [e21]; omega

/-- Row r of the table lies in the block of point r / 2000 of output 2. -/
theorem tiles0_3 (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hlt : (i 0).val / 2000 < cfg0.N := by rw [show cfg0.N = 100 from N_0]; omega
  obtain ⟨e00, e01, e10, e11, e20, e21, e30, e31⟩ := idx0 ⟨(i 0).val / 2000, hlt⟩
  have er : win0_3.index ⟨(i 0).val / 2000, hlt⟩ (0 : Fin 2) = (i 0).val / 2000 := e30
  refine ⟨⟨(i 0).val / 2000, hlt⟩, flush0_3 _, ?_⟩
  show i ∈ ((View.whole main_v24_1).slice (win0_3.rect ⟨(i 0).val / 2000, hlt⟩)).set
  rw [View.set_slice_whole, Rect.mem_set_unit]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [er]; omega
  | ⟨1, _⟩ =>
    show win0_3.index ⟨(i 0).val / 2000, hlt⟩ (1 : Fin 2) * 64 ≤ (i 1).val
      ∧ (i 1).val < win0_3.index ⟨(i 0).val / 2000, hlt⟩ (1 : Fin 2) * 64 + 64
    rw [e31]; omega

/-- The first output ends as the normalized table. -/
theorem emb0 (c : Dev nD) :
    (dat0 (F := Ideal) V c).arrAt 2 cfg0.N = Cert.Stages.normUsers (F := Ideal) (V c main_v13) :=
  (dat0 (F := Ideal) V c).arrAt_eq_of_cover 2 _ (fun t _ => wrote0_2 V c t) (tiles0_2)

/-- The second output ends as the running sum plus the normalized table. -/
theorem sum0 (c : Dev nD) :
    (dat0 (F := Ideal) V c).arrAt 3 cfg0.N = addf (V c main_arg0) (Cert.Stages.normUsers (F := Ideal) (V c main_v13)) :=
  (dat0 (F := Ideal) V c).arrAt_eq_of_cover 3 _ (fun t _ => wrote0_3 V c t) (tiles0_3)

end Cert.KernelIdeal.Blocks

end
-- ==== Proof.Norm1.lean ====
/-
  Layer 1, the item table: what the tiled pass leaves in its two output arrays.

  The pass walks the 100000 rows in 50 blocks of 2000.  At block t it reads rows 2000 t … 2000 t + 1999 of the
  summed arrivals and of the running sum, writes each arrival row divided by its bounded length to the first output
  and the running sum's row plus that to the second, at the same rows.  An entry of a normalized row depends on its own
  row only, so block t of either output is block t of the whole-table function; the 50 blocks tile the table, hence
  the first output ends as the normalized table and the second as the running sum plus it.
-/
import proofs.«149339_j41137196761091_1_alg».proof.Proof.Gen.KernelIdeal.Frame
import proofs.«149339_j41137196761091_1_alg».proof.Proof.Stages
import proofs.«149339_j41137196761091_1_alg».proof.Proof.NormParts
import Idealize.ShloMosaic.PureOps.Ideal
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- At point t every window's block is row block t, column block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back to the first output is block t of the normalized table. -/
theorem wrote1_2 (c : Dev nD) (t : Fin cfg1.N) :
    (dat1 (F := Ideal) V c).flushed 2 t
      = ((cfg1.win 2).blk t).view.read (Elt Ideal) (Cert.Stages.normItems (F := Ideal) (V c main_v23)) := by
  show (cfg1.win 2).cut (grid1.coords t) ((dat1 (F := Ideal) V c).after 2 t) = _
  rw [after1_2]
  unfold out1_2
  rw [View.canon_unit_zero Cert.NormParts.hz]
  simp only [View.ld_unit_zero (S := S2000x64) Cert.NormParts.hz]
  rw [Cert.NormParts.pay1_1]
  obtain ⟨e00, e01, e10, e11, e20, e21, e30, e31⟩ := idx1 t
  funext j
  have hj0 : (j 0).val < 2000 := (j 0).isLt
  have hj1 : (j 1).val < 64 := (j 1).isLt
  show k0_pay1 (F := Ideal) (iblk1 V c 0 t) j
      = Cert.Stages.normItems (F := Ideal) (V c main_v23) (((cfg1.win 2).blk t).view.emb j)
  refine (Cert.NormParts.pay1_idx (iblk1 V c 0 t) j).trans ?_
  refine Eq.trans ?_ (Cert.NormParts.normItems_idx (V c main_v23) (((cfg1.win 2).blk t).view.emb j)).symm
  have h1 : (((cfg1.win 2).blk t).view.emb j) 1 = j 1 :=
    Fin.ext (by show win1_2.index t (1 : Fin 2) * 64 + 1 * (j 1).val = (j 1).val; omega)
  rw [h1]
  refine Cert.RowUnit.unit_congr _ (fun d => ?_) _
  show V c main_v23 (((cfg1.win 0).blk t).view.emb (ix2 (j 0) d)) = V c main_v23 (ix2 ((((cfg1.win 2).blk t).view.emb j) 0) d)
  refine congrArg (V c main_v23) (funext fun a => Fin.ext ?_)
  match a with
  | ⟨0, _⟩ => show win1_0.index t (0 : Fin 2) * 2000 + 1 * (j 0).val = win1_2.index t (0 : Fin 2) * 2000 + 1 * (j 0).val; omega
  | ⟨1, _⟩ => show win1_0.index t (1 : Fin 2) * 64 + 1 * d.val = d.val; omega

/-- What point t writes back to the second output is block t of the running sum plus the normalized table. -/
theorem wrote1_3 (c : Dev nD) (t : Fin cfg1.N) :
    (dat1 (F := Ideal) V c).flushed 3 t
      = ((cfg1.win 3).blk t).view.read (Elt Ideal) (addf (V c main_arg1) (Cert.Stages.normItems (F := Ideal) (V c main_v23))) := by
  show (cfg1.win 3).cut (grid1.coords t) ((dat1 (F := Ideal) V c).after 3 t) = _
  rw [after1_3]
  unfold out1_3
  rw [View.canon_unit_zero Cert.NormParts.hz]
  simp only [View.ld_unit_zero (S := S2000x64) Cert.NormParts.hz]
  rw [Cert.NormParts.pay2_1]
  obtain ⟨e00, e01, e10, e11, e20, e21, e30, e31⟩ := idx1 t
  funext j
  have hj0 : (j 0).val < 2000 := (j 0).isLt
  have hj1 : (j 1).val < 64 := (j 1).isLt
  show k0_pay2 (F := Ideal) (iblk1 V c 0 t) (iblk1 V c 1 t) j
      = addf (V c main_arg1) (Cert.Stages.normItems (F := Ideal) (V c main_v23)) (((cfg1.win 3).blk t).view.emb j)
  refine (Cert.NormParts.pay2_idx (iblk1 V c 0 t) (iblk1 V c 1 t) j).trans ?_
  have hsum : iblk1 V c 1 t j = V c main_arg1 (((cfg1.win 3).blk t).view.emb j) := by
    show V c main_arg1 (((cfg1.win 1).blk t).view.emb j) = V c main_arg1 (((cfg1.win 3).blk t).view.emb j)
    refine congrArg (V c main_arg1) (funext fun a => Fin.ext ?_)
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 64 + 1 * (j 1).val = win1_3.index t (1 : Fin 2) * 64 + 1 * (j 1).val; omega
  have hnorm : Cert.RowUnit.unit Cert.NormParts.eps (fun d => iblk1 V c 0 t (ix2 (j 0) d)) (j 1)
      = Cert.Stages.normItems (F := Ideal) (V c main_v23) (((cfg1.win 3).blk t).view.emb j) := by
    refine Eq.trans ?_ (Cert.NormParts.normItems_idx (V c main_v23) (((cfg1.win 3).blk t).view.emb j)).symm
    have h1 : (((cfg1.win 3).blk t).view.emb j) 1 = j 1 :=
      Fin.ext (by show win1_3.index t (1 : Fin 2) * 64 + 1 * (j 1).val = (j 1).val; omega)
    rw [h1]
    refine Cert.RowUnit.unit_congr _ (fun d => ?_) _
    show V c main_v23 (((cfg1.win 0).blk t).view.emb (ix2 (j 0) d)) = V c main_v23 (ix2 ((((cfg1.win 3).blk t).view.emb j) 0) d)
    refine congrArg (V c main_v23) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 64 + 1 * d.val = d.val; omega
  exact congrArg₂ (fun a b : EReal => a + b) hsum hnorm

/-- Row r of the table lies in the block of point r / 2000 of output 1. -/
theorem tiles1_2 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 2000 < cfg1.N := by rw [show cfg1.N = 50 from N_1]; omega
  obtain ⟨e00, e01, e10, e11, e20, e21, e30, e31⟩ := idx1 ⟨(i 0).val / 2000, hlt⟩
  have er : win1_2.index ⟨(i 0).val / 2000, hlt⟩ (0 : Fin 2) = (i 0).val / 2000 := e20
  refine ⟨⟨(i 0).val / 2000, hlt⟩, flush1_2 _, ?_⟩
  show i ∈ ((View.whole main_v25_0).slice (win1_2.rect ⟨(i 0).val / 2000, hlt⟩)).set
  rw [View.set_slice_whole, Rect.mem_set_unit]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    rw [er]; omega
  | ⟨1, _⟩ =>
    show win1_2.index ⟨(i 0).val / 2000, hlt⟩ (1 : Fin 2) * 64 ≤ (i 1).val
      ∧ (i 1).val < win1_2.index ⟨(i 0).val / 2000, hlt⟩ (1 : Fin 2) * 64 + 64
    rw [e21]; omega

/-- Row r of the table lies in the block of point r / 2000 of output 2. -/
theorem tiles1_3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 2000 < cfg1.N := by rw [show cfg1.N = 50 from N_1]; omega
  obtain ⟨e00, e01, e10, e11, e20, e21, e30, e31⟩ := idx1 ⟨(i 0).val / 2000, hlt⟩
  have er : win1_3.index ⟨(i 0).val / 2000, hlt⟩ (0 : Fin 2) = (i 0).val / 2000 := e30
  refine ⟨⟨(i 0).val / 2000, hlt⟩, flush1_3 _, ?_⟩
  show i ∈ ((View.whole main_v25_1).slice (win1_3.rect ⟨(i 0).val / 2000, hlt⟩)).set
  rw [View.set_slice_whole, Rect.mem_set_unit]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [er]; omega
  | ⟨1, _⟩ =>
    show win1_3.index ⟨(i 0).val / 2000, hlt⟩ (1 : Fin 2) * 64 ≤ (i 1).val
      ∧ (i 1).val < win1_3.index ⟨(i 0).val / 2000, hlt⟩ (1 : Fin 2) * 64 + 64
    rw [e31]; omega

/-- The first output ends as the normalized table. -/
theorem emb1 (c : Dev nD) :
    (dat1 (F := Ideal) V c).arrAt 2 cfg1.N = Cert.Stages.normItems (F := Ideal) (V c main_v23) :=
  (dat1 (F := Ideal) V c).arrAt_eq_of_cover 2 _ (fun t _ => wrote1_2 V c t) (tiles1_2)

/-- The second output ends as the running sum plus the normalized table. -/
theorem sum1 (c : Dev nD) :
    (dat1 (F := Ideal) V c).arrAt 3 cfg1.N = addf (V c main_arg1) (Cert.Stages.normItems (F := Ideal) (V c main_v23)) :=
  (dat1 (F := Ideal) V c).arrAt_eq_of_cover 3 _ (fun t _ => wrote1_3 V c t) (tiles1_3)

end Cert.KernelIdeal.Blocks

end
-- ==== Proof.Norm2.lean ====
/-
  Layer 2, the user table: what the tiled pass leaves in its two output arrays.

  The pass walks the 200000 rows in 100 blocks of 2000.  At block t it reads rows 2000 t … 2000 t + 1999 of the
  summed arrivals and of the running sum, writes each arrival row divided by its bounded length to the first output
  and the running sum's row plus that to the second, at the same rows.  An entry of a normalized row depends on its own
  row only, so block t of either output is block t of the whole-table function; the 100 blocks tile the table, hence
  the first output ends as the normalized table and the second as the running sum plus it.
-/
import proofs.«149339_j41137196761091_1_alg».proof.Proof.Gen.KernelIdeal.Frame
import proofs.«149339_j41137196761091_1_alg».proof.Proof.Stages
import proofs.«149339_j41137196761091_1_alg».proof.Proof.NormParts
import Idealize.ShloMosaic.PureOps.Ideal
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- At point t every window's block is row block t, column block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back to the first output is block t of the normalized table. -/
theorem wrote2_2 (c : Dev nD) (t : Fin cfg2.N) :
    (dat2 (F := Ideal) V c).flushed 2 t
      = ((cfg2.win 2).blk t).view.read (Elt Ideal) (Cert.Stages.normUsers (F := Ideal) (V c main_v35)) := by
  show (cfg2.win 2).cut (grid2.coords t) ((dat2 (F := Ideal) V c).after 2 t) = _
  rw [after2_2]
  unfold out2_2
  rw [View.canon_unit_zero Cert.NormParts.hz]
  simp only [View.ld_unit_zero (S := S2000x64) Cert.NormParts.hz]
  rw [Cert.NormParts.pay1_2]
  obtain ⟨e00, e01, e10, e11, e20, e21, e30, e31⟩ := idx2 t
  funext j
  have hj0 : (j 0).val < 2000 := (j 0).isLt
  have hj1 : (j 1).val < 64 := (j 1).isLt
  show k0_pay1 (F := Ideal) (iblk2 V c 0 t) j
      = Cert.Stages.normUsers (F := Ideal) (V c main_v35) (((cfg2.win 2).blk t).view.emb j)
  refine (Cert.NormParts.pay1_idx (iblk2 V c 0 t) j).trans ?_
  refine Eq.trans ?_ (Cert.NormParts.normUsers_idx (V c main_v35) (((cfg2.win 2).blk t).view.emb j)).symm
  have h1 : (((cfg2.win 2).blk t).view.emb j) 1 = j 1 :=
    Fin.ext (by show win2_2.index t (1 : Fin 2) * 64 + 1 * (j 1).val = (j 1).val; omega)
  rw [h1]
  refine Cert.RowUnit.unit_congr _ (fun d => ?_) _
  show V c main_v35 (((cfg2.win 0).blk t).view.emb (ix2 (j 0) d)) = V c main_v35 (ix2 ((((cfg2.win 2).blk t).view.emb j) 0) d)
  refine congrArg (V c main_v35) (funext fun a => Fin.ext ?_)
  match a with
  | ⟨0, _⟩ => show win2_0.index t (0 : Fin 2) * 2000 + 1 * (j 0).val = win2_2.index t (0 : Fin 2) * 2000 + 1 * (j 0).val; omega
  | ⟨1, _⟩ => show win2_0.index t (1 : Fin 2) * 64 + 1 * d.val = d.val; omega

/-- What point t writes back to the second output is block t of the running sum plus the normalized table. -/
theorem wrote2_3 (c : Dev nD) (t : Fin cfg2.N) :
    (dat2 (F := Ideal) V c).flushed 3 t
      = ((cfg2.win 3).blk t).view.read (Elt Ideal) (addf (V c main_v24_1) (Cert.Stages.normUsers (F := Ideal) (V c main_v35))) := by
  show (cfg2.win 3).cut (grid2.coords t) ((dat2 (F := Ideal) V c).after 3 t) = _
  rw [after2_3]
  unfold out2_3
  rw [View.canon_unit_zero Cert.NormParts.hz]
  simp only [View.ld_unit_zero (S := S2000x64) Cert.NormParts.hz]
  rw [Cert.NormParts.pay2_2]
  obtain ⟨e00, e01, e10, e11, e20, e21, e30, e31⟩ := idx2 t
  funext j
  have hj0 : (j 0).val < 2000 := (j 0).isLt
  have hj1 : (j 1).val < 64 := (j 1).isLt
  show k0_pay2 (F := Ideal) (iblk2 V c 0 t) (iblk2 V c 1 t) j
      = addf (V c main_v24_1) (Cert.Stages.normUsers (F := Ideal) (V c main_v35)) (((cfg2.win 3).blk t).view.emb j)
  refine (Cert.NormParts.pay2_idx (iblk2 V c 0 t) (iblk2 V c 1 t) j).trans ?_
  have hsum : iblk2 V c 1 t j = V c main_v24_1 (((cfg2.win 3).blk t).view.emb j) := by
    show V c main_v24_1 (((cfg2.win 1).blk t).view.emb j) = V c main_v24_1 (((cfg2.win 3).blk t).view.emb j)
    refine congrArg (V c main_v24_1) (funext fun a => Fin.ext ?_)
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 64 + 1 * (j 1).val = win2_3.index t (1 : Fin 2) * 64 + 1 * (j 1).val; omega
  have hnorm : Cert.RowUnit.unit Cert.NormParts.eps (fun d => iblk2 V c 0 t (ix2 (j 0) d)) (j 1)
      = Cert.Stages.normUsers (F := Ideal) (V c main_v35) (((cfg2.win 3).blk t).view.emb j) := by
    refine Eq.trans ?_ (Cert.NormParts.normUsers_idx (V c main_v35) (((cfg2.win 3).blk t).view.emb j)).symm
    have h1 : (((cfg2.win 3).blk t).view.emb j) 1 = j 1 :=
      Fin.ext (by show win2_3.index t (1 : Fin 2) * 64 + 1 * (j 1).val = (j 1).val; omega)
    rw [h1]
    refine Cert.RowUnit.unit_congr _ (fun d => ?_) _
    show V c main_v35 (((cfg2.win 0).blk t).view.emb (ix2 (j 0) d)) = V c main_v35 (ix2 ((((cfg2.win 3).blk t).view.emb j) 0) d)
    refine congrArg (V c main_v35) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * d.val = d.val; omega
  exact congrArg₂ (fun a b : EReal => a + b) hsum hnorm

/-- Row r of the table lies in the block of point r / 2000 of output 1. -/
theorem tiles2_2 (i : S200000x64.Idx) :
    ∃ t : Fin cfg2.N, (cfg2.win 2).flush t = true ∧ i ∈ ((cfg2.win 2).blk t).view.set := by
  have hi0 : (i 0).val < 200000 := (i 0).isLt
  have hi1 : (i 1).val < 64 := (i 1).isLt
  have hlt : (i 0).val / 2000 < cfg2.N := by rw [show cfg2.N = 100 from N_2]; omega
  obtain ⟨e00, e01, e10, e11, e20, e21, e30, e31⟩ := idx2 ⟨(i 0).val / 2000, hlt⟩
  have er : win2_2.index ⟨(i 0).val / 2000, hlt⟩ (0 : Fin 2) = (i 0).val / 2000 := e20
  refine ⟨⟨(i 0).val / 2000, hlt⟩, flush2_2 _, ?_⟩
  show i ∈ ((View.whole main_v46_0).slice (win2_2.rect ⟨(i 0).val / 2000, hlt⟩)).set
  rw [View.set_slice_whole, Rect.mem_set_unit]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    rw [er]; omega
  | ⟨1, _⟩ =>
    show win2_2.index ⟨(i 0).val / 2000, hlt⟩ (1 : Fin 2) * 64 ≤ (i 1).val
      ∧ (i 1).val < win2_2.index ⟨(i 0).val / 2000, hlt⟩ (1 : Fin 2) * 64 + 64
    rw [e21]; omega

/-- Row r of the table lies in the block of point r / 2000 of output 2. -/
theorem tiles2_3 (i : S200000x64.Idx) :
    ∃ t : Fin cfg2.N, (cfg2.win 3).flush t = true ∧ i ∈ ((cfg2.win 3).blk t).view.set := by
  have hi0 : (i 0).val < 200000 := (i 0).isLt
  have hi1 : (i 1).val < 64 := (i 1).isLt
  have hlt : (i 0).val / 2000 < cfg2.N := by rw [show cfg2.N = 100 from N_2]; omega
  obtain ⟨e00, e01, e10, e11, e20, e21, e30, e31⟩ := idx2 ⟨(i 0).val / 2000, hlt⟩
  have er : win2_3.index ⟨(i 0).val / 2000, hlt⟩ (0 : Fin 2) = (i 0).val / 2000 := e30
  refine ⟨⟨(i 0).val / 2000, hlt⟩, flush2_3 _, ?_⟩
  show i ∈ ((View.whole main_v46_1).slice (win2_3.rect ⟨(i 0).val / 2000, hlt⟩)).set
  rw [View.set_slice_whole, Rect.mem_set_unit]
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    rw [er]; omega
  | ⟨1, _⟩ =>
    show win2_3.index ⟨(i 0).val / 2000, hlt⟩ (1 : Fin 2) * 64 ≤ (i 1).val
      ∧ (i 1).val < win2_3.index ⟨(i 0).val / 2000, hlt⟩ (1 : Fin 2) * 64 + 64
    rw [e31]; omega

/-- The first output ends as the normalized table. -/
theorem emb2 (c : Dev nD) :
    (dat2 (F := Ideal) V c).arrAt 2 cfg2.N = Cert.Stages.normUsers (F := Ideal) (V c main_v35) :=
  (dat2 (F := Ideal) V c).arrAt_eq_of_cover 2 _ (fun t _ => wrote2_2 V c t) (tiles2_2)

/-- The second output ends as the running sum plus the normalized table. -/
theorem sum2 (c : Dev nD) :
    (dat2 (F := Ideal) V c).arrAt 3 cfg2.N = addf (V c main_v24_1) (Cert.Stages.normUsers (F := Ideal) (V c main_v35)) :=
  (dat2 (F := Ideal) V c).arrAt_eq_of_cover 3 _ (fun t _ => wrote2_3 V c t) (tiles2_3)

end Cert.KernelIdeal.Blocks

end
-- ==== Proof.Norm3.lean ====
/-
  Layer 2, the item table: what the tiled pass leaves in its two output arrays.

  The pass walks the 100000 rows in 50 blocks of 2000.  At block t it reads rows 2000 t … 2000 t + 1999 of the
  summed arrivals and of the running sum, writes each arrival row divided by its bounded length to the first output
  and the running sum's row plus that to the second, at the same rows.  An entry of a normalized row depends on its own
  row only, so block t of either output is block t of the whole-table function; the 50 blocks tile the table, hence
  the first output ends as the normalized table and the second as the running sum plus it.
-/
import proofs.«149339_j41137196761091_1_alg».proof.Proof.Gen.KernelIdeal.Frame
import proofs.«149339_j41137196761091_1_alg».proof.Proof.Stages
import proofs.«149339_j41137196761091_1_alg».proof.Proof.NormParts
import Idealize.ShloMosaic.PureOps.Ideal
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- At point t every window's block is row block t, column block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back to the first output is block t of the normalized table. -/
theorem wrote3_2 (c : Dev nD) (t : Fin cfg3.N) :
    (dat3 (F := Ideal) V c).flushed 2 t
      = ((cfg3.win 2).blk t).view.read (Elt Ideal) (Cert.Stages.normItems (F := Ideal) (V c main_v45)) := by
  show (cfg3.win 2).cut (grid3.coords t) ((dat3 (F := Ideal) V c).after 2 t) = _
  rw [after3_2]
  unfold out3_2
  rw [View.canon_unit_zero Cert.NormParts.hz]
  simp only [View.ld_unit_zero (S := S2000x64) Cert.NormParts.hz]
  rw [Cert.NormParts.pay1_3]
  obtain ⟨e00, e01, e10, e11, e20, e21, e30, e31⟩ := idx3 t
  funext j
  have hj0 : (j 0).val < 2000 := (j 0).isLt
  have hj1 : (j 1).val < 64 := (j 1).isLt
  show k0_pay1 (F := Ideal) (iblk3 V c 0 t) j
      = Cert.Stages.normItems (F := Ideal) (V c main_v45) (((cfg3.win 2).blk t).view.emb j)
  refine (Cert.NormParts.pay1_idx (iblk3 V c 0 t) j).trans ?_
  refine Eq.trans ?_ (Cert.NormParts.normItems_idx (V c main_v45) (((cfg3.win 2).blk t).view.emb j)).symm
  have h1 : (((cfg3.win 2).blk t).view.emb j) 1 = j 1 :=
    Fin.ext (by show win3_2.index t (1 : Fin 2) * 64 + 1 * (j 1).val = (j 1).val; omega)
  rw [h1]
  refine Cert.RowUnit.unit_congr _ (fun d => ?_) _
  show V c main_v45 (((cfg3.win 0).blk t).view.emb (ix2 (j 0) d)) = V c main_v45 (ix2 ((((cfg3.win 2).blk t).view.emb j) 0) d)
  refine congrArg (V c main_v45) (funext fun a => Fin.ext ?_)
  match a with
  | ⟨0, _⟩ => show win3_0.index t (0 : Fin 2) * 2000 + 1 * (j 0).val = win3_2.index t (0 : Fin 2) * 2000 + 1 * (j 0).val; omega
  | ⟨1, _⟩ => show win3_0.index t (1 : Fin 2) * 64 + 1 * d.val = d.val; omega

/-- What point t writes back to the second output is block t of the running sum plus the normalized table. -/
theorem wrote3_3 (c : Dev nD) (t : Fin cfg3.N) :
    (dat3 (F := Ideal) V c).flushed 3 t
      = ((cfg3.win 3).blk t).view.read (Elt Ideal) (addf (V c main_v25_1) (Cert.Stages.normItems (F := Ideal) (V c main_v45))) := by
  show (cfg3.win 3).cut (grid3.coords t) ((dat3 (F := Ideal) V c).after 3 t) = _
  rw [after3_3]
  unfold out3_3
  rw [View.canon_unit_zero Cert.NormParts.hz]
  simp only [View.ld_unit_zero (S := S2000x64) Cert.NormParts.hz]
  rw [Cert.NormParts.pay2_3]
  obtain ⟨e00, e01, e10, e11, e20, e21, e30, e31⟩ := idx3 t
  funext j
  have hj0 : (j 0).val < 2000 := (j 0).isLt
  have hj1 : (j 1).val < 64 := (j 1).isLt
  show k0_pay2 (F := Ideal) (iblk3 V c 0 t) (iblk3 V c 1 t) j
      = addf (V c main_v25_1) (Cert.Stages.normItems (F := Ideal) (V c main_v45)) (((cfg3.win 3).blk t).view.emb j)
  refine (Cert.NormParts.pay2_idx (iblk3 V c 0 t) (iblk3 V c 1 t) j).trans ?_
  have hsum : iblk3 V c 1 t j = V c main_v25_1 (((cfg3.win 3).blk t).view.emb j) := by
    show V c main_v25_1 (((cfg3.win 1).blk t).view.emb j) = V c main_v25_1 (((cfg3.win 3).blk t).view.emb j)
    refine congrArg (V c main_v25_1) (funext fun a => Fin.ext ?_)
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 64 + 1 * (j 1).val = win3_3.index t (1 : Fin 2) * 64 + 1 * (j 1).val; omega
  have hnorm : Cert.RowUnit.unit Cert.NormParts.eps (fun d => iblk3 V c 0 t (ix2 (j 0) d)) (j 1)
      = Cert.Stages.normItems (F := Ideal) (V c main_v45) (((cfg3.win 3).blk t).view.emb j) := by
    refine Eq.trans ?_ (Cert.NormParts.normItems_idx (V c main_v45) (((cfg3.win 3).blk t).view.emb j)).symm
    have h1 : (((cfg3.win 3).blk t).view.emb j) 1 = j 1 :=
      Fin.ext (by show win3_3.index t (1 : Fin 2) * 64 + 1 * (j 1).val = (j 1).val; omega)
    rw [h1]
    refine Cert.RowUnit.unit_congr _ (fun d => ?_) _
    show V c main_v45 (((cfg3.win 0).blk t).view.emb (ix2 (j 0) d)) = V c main_v45 (ix2 ((((cfg3.win 3).blk t).view.emb j) 0) d)
    refine congrArg (V c main_v45) (funext fun a => Fin.ext ?_)
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 64 + 1 * d.val = d.val; omega
  exact congrArg₂ (fun a b : EReal => a + b) hsum hnorm

/-- Row r of the table lies in the block of point r / 2000 of output 1. -/
theorem tiles3_2 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hlt : (i 0).val / 2000 < cfg3.N := by rw [show cfg3.N = 50 from N_3]; omega
  obtain ⟨e00, e01, e10, e11, e20, e21, e30, e31⟩ := idx3 ⟨(i 0).val / 2000, hlt⟩
  have er : win3_2.index ⟨(i 0).val / 2000, hlt⟩ (0 : Fin 2) = (i 0).val / 2000 := e20
  refine ⟨⟨(i 0).val / 2000, hlt⟩, flush3_2 _, ?_⟩
  show i ∈ ((View.whole main_v47_0).slice (win3_2.rect ⟨(i 0).val / 2000, hlt⟩)).set
  rw [View.set_slice_whole, Rect.mem_set_unit]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    rw [er]; omega
  | ⟨1, _⟩ =>
    show win3_2.index ⟨(i 0).val / 2000, hlt⟩ (1 : Fin 2) * 64 ≤ (i 1).val
      ∧ (i 1).val < win3_2.index ⟨(i 0).val / 2000, hlt⟩ (1 : Fin 2) * 64 + 64
    rw [e21]; omega

/-- Row r of the table lies in the block of point r / 2000 of output 2. -/
theorem tiles3_3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hlt : (i 0).val / 2000 < cfg3.N := by rw [show cfg3.N = 50 from N_3]; omega
  obtain ⟨e00, e01, e10, e11, e20, e21, e30, e31⟩ := idx3 ⟨(i 0).val / 2000, hlt⟩
  have er : win3_3.index ⟨(i 0).val / 2000, hlt⟩ (0 : Fin 2) = (i 0).val / 2000 := e30
  refine ⟨⟨(i 0).val / 2000, hlt⟩, flush3_3 _, ?_⟩
  show i ∈ ((View.whole main_v47_1).slice (win3_3.rect ⟨(i 0).val / 2000, hlt⟩)).set
  rw [View.set_slice_whole, Rect.mem_set_unit]
  intro a
  match a with
  | ⟨0, _⟩ =>
    show win3_3.index ⟨(i 0).val / 2000, hlt⟩ (0 : Fin 2) * 2000 ≤ (i 0).val
      ∧ (i 0).val < win3_3.index ⟨(i 0).val / 2000, hlt⟩ (0 : Fin 2) * 2000 + 2000
    rw [er]; omega
  | ⟨1, _⟩ =>
    show win3_3.index ⟨(i 0).val / 2000, hlt⟩ (1 : Fin 2) * 64 ≤ (i 1).val
      ∧ (i 1).val < win3_3.index ⟨(i 0).val / 2000, hlt⟩ (1 : Fin 2) * 64 + 64
    rw [e31]; omega

/-- The first output ends as the normalized table. -/
theorem emb3 (c : Dev nD) :
    (dat3 (F := Ideal) V c).arrAt 2 cfg3.N = Cert.Stages.normItems (F := Ideal) (V c main_v45) :=
  (dat3 (F := Ideal) V c).arrAt_eq_of_cover 2 _ (fun t _ => wrote3_2 V c t) (tiles3_2)

/-- The second output ends as the running sum plus the normalized table. -/
theorem sum3 (c : Dev nD) :
    (dat3 (F := Ideal) V c).arrAt 3 cfg3.N = addf (V c main_v25_1) (Cert.Stages.normItems (F := Ideal) (V c main_v45)) :=
  (dat3 (F := Ideal) V c).arrAt_eq_of_cover 3 _ (fun t _ => wrote3_3 V c t) (tiles3_3)

end Cert.KernelIdeal.Blocks

end
-- ==== Proof.Norm4.lean ====
/-
  Layer 3, the user table: what the tiled pass leaves in its two output arrays.

  The pass walks the 200000 rows in 100 blocks of 2000.  At block t it reads rows 2000 t … 2000 t + 1999 of the
  summed arrivals and of the running sum, writes each arrival row divided by its bounded length to the first output
  and the running sum's row plus that to the second, at the same rows.  An entry of a normalized row depends on its own
  row only, so block t of either output is block t of the whole-table function; the 100 blocks tile the table, hence
  the first output ends as the normalized table and the second as the running sum plus it.
-/
import proofs.«149339_j41137196761091_1_alg».proof.Proof.Gen.KernelIdeal.Frame
import proofs.«149339_j41137196761091_1_alg».proof.Proof.Stages
import proofs.«149339_j41137196761091_1_alg».proof.Proof.NormParts
import Idealize.ShloMosaic.PureOps.Ideal
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- At point t every window's block is row block t, column block 0. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point t writes back to the first output is block t of the normalized table. -/
theorem wrote4_2 (c : Dev nD) (t : Fin cfg4.N) :
    (dat4 (F := Ideal) V c).flushed 2 t
      = ((cfg4.win 2).blk t).view.read (Elt Ideal) (Cert.Stages.normUsers (F := Ideal) (V c main_v57)) := by
  show (cfg4.win 2).cut (grid4.coords t) ((dat4 (F := Ideal) V c).after 2 t) = _
  rw [after4_2]
  unfold out4_2
  rw [View.canon_unit_zero Cert.NormParts.hz]
  simp only [View.ld_unit_zero (S := S2000x64) Cert.NormParts.hz]
  rw [Cert.NormParts.pay1_4]
  obtain ⟨e00, e01, e10, e11, e20, e21, e30, e31⟩ := idx4 t
  funext j
  have hj0 : (j 0).val < 2000 := (j 0).isLt
  have hj1 : (j 1).val < 64 := (j 1).isLt
  show k0_pay1 (F := Ideal) (iblk4 V c 0 t) j
      = Cert.Stages.normUsers (F := Ideal) (V c main_v57) (((cfg4.win 2).blk t).view.emb j)
  refine (Cert.NormParts.pay1_idx (iblk4 V c 0 t) j).trans ?_
  refine Eq.trans ?_ (Cert.NormParts.normUsers_idx (V c main_v57) (((cfg4.win 2).blk t).view.emb j)).symm
  have h1 : (((cfg4.win 2).blk t).view.emb j) 1 = j 1 :=
    Fin.ext (by show win4_2.index t (1 : Fin 2) * 64 + 1 * (j 1).val = (j 1).val; omega)
  rw [h1]
  refine Cert.RowUnit.unit_congr _ (fun d => ?_) _
  show V c main_v57 (((cfg4.win 0).blk t).view.emb (ix2 (j 0) d)) = V c main_v57 (ix2 ((((cfg4.win 2).blk t).view.emb j) 0) d)
  refine congrArg (V c main_v57) (funext fun a => Fin.ext ?_)
  match a with
  | ⟨0, _⟩ => show win4_0.index t (0 : Fin 2) * 2000 + 1 * (j 0).val = win4_2.index t (0 : Fin 2) * 2000 + 1 * (j 0).val; omega
  | ⟨1, _⟩ => show win4_0.index t (1 : Fin 2) * 64 + 1 * d.val = d.val; omega

/-- What point t writes back to the second output is block t of the running sum plus the normalized table. -/
theorem wrote4_3 (c : Dev nD) (t : Fin cfg4.N) :
    (dat4 (F := Ideal) V c).flushed 3 t
      = ((cfg4.win 3).blk t).view.read (Elt Ideal) (addf (V c main_v46_1) (Cert.Stages.normUsers (F := Ideal) (V c main_v57))) := by
  show (cfg4.win 3).cut (grid4.coords t) ((dat4 (F := Ideal) V c).after 3 t) = _
  rw [after4_3]
  unfold out4_3
  rw [View.canon_unit_zero Cert.NormParts.hz]
  simp only [View.ld_unit_zero (S := S2000x64) Cert.NormParts.hz]
  rw [Cert.NormParts.pay2_4]
  obtain ⟨e00, e01, e10, e11, e20, e21, e30, e31⟩ := idx4 t
  funext j
  have hj0 : (j 0).val < 2000 := (j 0).isLt
  have hj1 : (j 1).val < 64 := (j 1).isLt
  show k0_pay2 (F := Ideal) (iblk4 V c 0 t) (iblk4 V c 1 t) j
      = addf (V c main_v46_1) (Cert.Stages.normUsers (F := Ideal) (V c main_v57)) (((cfg4.win 3).blk t).view.emb j)
  refine (Cert.NormParts.pay2_idx (iblk4 V c 0 t) (iblk4 V c 1 t) j).trans ?_
  have hsum : iblk4 V c 1 t j = V c main_v46_1 (((cfg4.win 3).blk t).view.emb j) := by
    show V c main_v46_1 (((cfg4.win 1).blk t).view.emb j) = V c main_v46_1 (((cfg4.win 3).blk t).view.emb j)
    refine congrArg (V c main_v46_1) (funext fun a => Fin.ext ?_)
    match a with
    | ⟨0, _⟩ => show win4_1.index t (0 : Fin 2) * 2000 + 1 * (j 0).val = win4_3.index t (0 : Fin 2) * 2000 + 1 * (j 0).val; omega
    | ⟨1, _⟩ => show win4_1.index t (1 : Fin 2) * 64 + 1 * (j 1).val = win4_3.index t (1 : Fin 2) * 64 + 1 * (j 1).val; omega
  have hnorm : Cert.RowUnit.unit Cert.NormParts.eps (fun d => iblk4 V c 0 t (ix2 (j 0) d)) (j 1)
      = Cert.Stages.normUsers (F := Ideal) (V c main_v57) (((cfg4.win 3).blk t).view.emb j) := by
    refine Eq.trans ?_ (Cert.NormParts.normUsers_idx (V c main_v57) (((cfg4.win 3).blk t).view.emb j)).symm
    have h1 : (((cfg4.win 3).blk t).view.emb j) 1 = j 1 :=
      Fin.ext (by show win4_3.index t (1 : Fin 2) * 64 + 1 * (j 1).val = (j 1).val; omega)
    rw [h1]
    refine Cert.RowUnit.unit_congr _ (fun d => ?_) _
    show V c main_v57 (((cfg4.win 0).blk t).view.emb (ix2 (j 0) d)) = V c main_v57 (ix2 ((((cfg4.win 3).blk t).view.emb j) 0) d)
    refine congrArg (V c main_v57) (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 64 + 1 * d.val = d.val; omega
  exact congrArg₂ (fun a b : EReal => a + b) hsum hnorm

/-- Row r of the table lies in the block of point r / 2000 of output 1. -/
theorem tiles4_2 (i : S200000x64.Idx) :
    ∃ t : Fin cfg4.N, (cfg4.win 2).flush t = true ∧ i ∈ ((cfg4.win 2).blk t).view.set := by
  have hi0 : (i 0).val < 200000 := (i 0).isLt
  have hi1 : (i 1).val < 64 := (i 1).isLt
  have hlt : (i 0).val / 2000 < cfg4.N := by rw [show cfg4.N = 100 from N_4]; omega
  obtain ⟨e00, e01, e10, e11, e20, e21, e30, e31⟩ := idx4 ⟨(i 0).val / 2000, hlt⟩
  have er : win4_2.index ⟨(i 0).val / 2000, hlt⟩ (0 : Fin 2) = (i 0).val / 2000 := e20
  refine ⟨⟨(i 0).val / 2000, hlt⟩, flush4_2 _, ?_⟩
  show i ∈ ((View.whole main_v68_0).slice (win4_2.rect ⟨(i 0).val / 2000, hlt⟩)).set
  rw [View.set_slice_whole, Rect.mem_set_unit]
  intro a
  match a with
  | ⟨0, _⟩ =>
    show win4_2.index ⟨(i 0).val / 2000, hlt⟩ (0 : Fin 2) * 2000 ≤ (i 0).val
      ∧ (i 0).val < win4_2.index ⟨(i 0).val / 2000, hlt⟩ (0 : Fin 2) * 2000 + 2000
    rw [er]; omega
  | ⟨1, _⟩ =>
    show win4_2.index ⟨(i 0).val / 2000, hlt⟩ (1 : Fin 2) * 64 ≤ (i 1).val
      ∧ (i 1).val < win4_2.index ⟨(i 0).val / 2000, hlt⟩ (1 : Fin 2) * 64 + 64
    rw [e21]; omega

/-- Row r of the table lies in the block of point r / 2000 of output 2. -/
theorem tiles4_3 (i : S200000x64.Idx) :
    ∃ t : Fin cfg4.N, (cfg4.win 3).flush t = true ∧ i ∈ ((cfg4.win 3).blk t).view.set := by
  have hi0 : (i 0).val < 200000 := (i 0).isLt
  have hi1 : (i 1).val < 64 := (i 1).isLt
  have hlt : (i 0).val / 2000 < cfg4.N := by rw [show cfg4.N = 100 from N_4]; omega
  obtain ⟨e00, e01, e10, e11, e20, e21, e30, e31⟩ := idx4 ⟨(i 0).val / 2000, hlt⟩
  have er : win4_3.index ⟨(i 0).val / 2000, hlt⟩ (0 : Fin 2) = (i 0).val / 2000 := e30
  refine ⟨⟨(i 0).val / 2000, hlt⟩, flush4_3 _, ?_⟩
  show i ∈ ((View.whole main_v68_1).slice (win4_3.rect ⟨(i 0).val / 2000, hlt⟩)).set
  rw [View.set_slice_whole, Rect.mem_set_unit]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [er]; omega
  | ⟨1, _⟩ =>
    show win4_3.index ⟨(i 0).val / 2000, hlt⟩ (1 : Fin 2) * 64 ≤ (i 1).val
      ∧ (i 1).val < win4_3.index ⟨(i 0).val / 2000, hlt⟩ (1 : Fin 2) * 64 + 64
    rw [e31]; omega

/-- The first output ends as the normalized table. -/
theorem emb4 (c : Dev nD) :
    (dat4 (F := Ideal) V c).arrAt 2 cfg4.N = Cert.Stages.normUsers (F := Ideal) (V c main_v57) :=
  (dat4 (F := Ideal) V c).arrAt_eq_of_cover 2 _ (fun t _ => wrote4_2 V c t) (tiles4_2)

/-- The second output ends as the running sum plus the normalized table. -/
theorem sum4 (c : Dev nD) :
    (dat4 (F := Ideal) V c).arrAt 3 cfg4.N = addf (V c main_v46_1) (Cert.Stages.normUsers (F := Ideal) (V c main_v57)) :=
  (dat4 (F := Ideal) V c).arrAt_eq_of_cover 3 _ (fun t _ => wrote4_3 V c t) (tiles4_3)

end Cert.KernelIdeal.Blocks

end
-- ==== Proof.Norm5.lean ====
/-
  Layer 3, the item table: what the tiled pass leaves in its two output arrays.

  The pass walks the 100000 rows in 50 blocks of 2000.  At block t it reads rows 2000 t … 2000 t + 1999 of the
  summed arrivals and of the running sum, writes each arrival row divided by its bounded length to the first output
  and the running sum's row plus that to the second, at the same rows.  An entry of a normalized row depends on its own
  row only, so block t of either output is block t of the whole-table function; the 50 blocks tile the table, hence
  the first output ends as the normalized table and the second as the running sum plus it.
-/
import proofs.«149339_j41137196761091_1_alg».proof.Proof.Gen.KernelIdeal.Frame
import proofs.«149339_j41137196761091_1_alg».proof.Proof.Stages
import proofs.«149339_j41137196761091_1_alg».proof.Proof.NormParts
import Idealize.ShloMosaic.PureOps.Ideal
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- At point t every window's block is row block t, column block 0. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point t writes back to the first output is block t of the normalized table. -/
theorem wrote5_2 (c : Dev nD) (t : Fin cfg5.N) :
    (dat5 (F := Ideal) V c).flushed 2 t
      = ((cfg5.win 2).blk t).view.read (Elt Ideal) (Cert.Stages.normItems (F := Ideal) (V c main_v67)) := by
  show (cfg5.win 2).cut (grid5.coords t) ((dat5 (F := Ideal) V c).after 2 t) = _
  rw [after5_2]
  unfold out5_2
  rw [View.canon_unit_zero Cert.NormParts.hz]
  simp only [View.ld_unit_zero (S := S2000x64) Cert.NormParts.hz]
  rw [Cert.NormParts.pay1_5]
  obtain ⟨e00, e01, e10, e11, e20, e21, e30, e31⟩ := idx5 t
  funext j
  have hj0 : (j 0).val < 2000 := (j 0).isLt
  have hj1 : (j 1).val < 64 := (j 1).isLt
  show k0_pay1 (F := Ideal) (iblk5 V c 0 t) j
      = Cert.Stages.normItems (F := Ideal) (V c main_v67) (((cfg5.win 2).blk t).view.emb j)
  refine (Cert.NormParts.pay1_idx (iblk5 V c 0 t) j).trans ?_
  refine Eq.trans ?_ (Cert.NormParts.normItems_idx (V c main_v67) (((cfg5.win 2).blk t).view.emb j)).symm
  have h1 : (((cfg5.win 2).blk t).view.emb j) 1 = j 1 :=
    Fin.ext (by show win5_2.index t (1 : Fin 2) * 64 + 1 * (j 1).val = (j 1).val; omega)
  rw [h1]
  refine Cert.RowUnit.unit_congr _ (fun d => ?_) _
  show V c main_v67 (((cfg5.win 0).blk t).view.emb (ix2 (j 0) d)) = V c main_v67 (ix2 ((((cfg5.win 2).blk t).view.emb j) 0) d)
  refine congrArg (V c main_v67) (funext fun a => Fin.ext ?_)
  match a with
  | ⟨0, _⟩ => show win5_0.index t (0 : Fin 2) * 2000 + 1 * (j 0).val = win5_2.index t (0 : Fin 2) * 2000 + 1 * (j 0).val; omega
  | ⟨1, _⟩ => show win5_0.index t (1 : Fin 2) * 64 + 1 * d.val = d.val; omega

/-- What point t writes back to the second output is block t of the running sum plus the normalized table. -/
theorem wrote5_3 (c : Dev nD) (t : Fin cfg5.N) :
    (dat5 (F := Ideal) V c).flushed 3 t
      = ((cfg5.win 3).blk t).view.read (Elt Ideal) (addf (V c main_v47_1) (Cert.Stages.normItems (F := Ideal) (V c main_v67))) := by
  show (cfg5.win 3).cut (grid5.coords t) ((dat5 (F := Ideal) V c).after 3 t) = _
  rw [after5_3]
  unfold out5_3
  rw [View.canon_unit_zero Cert.NormParts.hz]
  simp only [View.ld_unit_zero (S := S2000x64) Cert.NormParts.hz]
  rw [Cert.NormParts.pay2_5]
  obtain ⟨e00, e01, e10, e11, e20, e21, e30, e31⟩ := idx5 t
  funext j
  have hj0 : (j 0).val < 2000 := (j 0).isLt
  have hj1 : (j 1).val < 64 := (j 1).isLt
  show k0_pay2 (F := Ideal) (iblk5 V c 0 t) (iblk5 V c 1 t) j
      = addf (V c main_v47_1) (Cert.Stages.normItems (F := Ideal) (V c main_v67)) (((cfg5.win 3).blk t).view.emb j)
  refine (Cert.NormParts.pay2_idx (iblk5 V c 0 t) (iblk5 V c 1 t) j).trans ?_
  have hsum : iblk5 V c 1 t j = V c main_v47_1 (((cfg5.win 3).blk t).view.emb j) := by
    show V c main_v47_1 (((cfg5.win 1).blk t).view.emb j) = V c main_v47_1 (((cfg5.win 3).blk t).view.emb j)
    refine congrArg (V c main_v47_1) (funext fun a => Fin.ext ?_)
    match a with
    | ⟨0, _⟩ => show win5_1.index t (0 : Fin 2) * 2000 + 1 * (j 0).val = win5_3.index t (0 : Fin 2) * 2000 + 1 * (j 0).val; omega
    | ⟨1, _⟩ => show win5_1.index t (1 : Fin 2) * 64 + 1 * (j 1).val = win5_3.index t (1 : Fin 2) * 64 + 1 * (j 1).val; omega
  have hnorm : Cert.RowUnit.unit Cert.NormParts.eps (fun d => iblk5 V c 0 t (ix2 (j 0) d)) (j 1)
      = Cert.Stages.normItems (F := Ideal) (V c main_v67) (((cfg5.win 3).blk t).view.emb j) := by
    refine Eq.trans ?_ (Cert.NormParts.normItems_idx (V c main_v67) (((cfg5.win 3).blk t).view.emb j)).symm
    have h1 : (((cfg5.win 3).blk t).view.emb j) 1 = j 1 :=
      Fin.ext (by show win5_3.index t (1 : Fin 2) * 64 + 1 * (j 1).val = (j 1).val; omega)
    rw [h1]
    refine Cert.RowUnit.unit_congr _ (fun d => ?_) _
    show V c main_v67 (((cfg5.win 0).blk t).view.emb (ix2 (j 0) d)) = V c main_v67 (ix2 ((((cfg5.win 3).blk t).view.emb j) 0) d)
    refine congrArg (V c main_v67) (funext fun a => Fin.ext ?_)
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 64 + 1 * d.val = d.val; omega
  exact congrArg₂ (fun a b : EReal => a + b) hsum hnorm

/-- Row r of the table lies in the block of point r / 2000 of output 1. -/
theorem tiles5_2 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hlt : (i 0).val / 2000 < cfg5.N := by rw [show cfg5.N = 50 from N_5]; omega
  obtain ⟨e00, e01, e10, e11, e20, e21, e30, e31⟩ := idx5 ⟨(i 0).val / 2000, hlt⟩
  have er : win5_2.index ⟨(i 0).val / 2000, hlt⟩ (0 : Fin 2) = (i 0).val / 2000 := e20
  refine ⟨⟨(i 0).val / 2000, hlt⟩, flush5_2 _, ?_⟩
  show i ∈ ((View.whole main_v69_0).slice (win5_2.rect ⟨(i 0).val / 2000, hlt⟩)).set
  rw [View.set_slice_whole, Rect.mem_set_unit]
  intro a
  match a with
  | ⟨0, _⟩ =>
    show win5_2.index ⟨(i 0).val / 2000, hlt⟩ (0 : Fin 2) * 2000 ≤ (i 0).val
      ∧ (i 0).val < win5_2.index ⟨(i 0).val / 2000, hlt⟩ (0 : Fin 2) * 2000 + 2000
    rw [er]; omega
  | ⟨1, _⟩ =>
    show win5_2.index ⟨(i 0).val / 2000, hlt⟩ (1 : Fin 2) * 64 ≤ (i 1).val
      ∧ (i 1).val < win5_2.index ⟨(i 0).val / 2000, hlt⟩ (1 : Fin 2) * 64 + 64
    rw [e21]; omega

/-- Row r of the table lies in the block of point r / 2000 of output 2. -/
theorem tiles5_3 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hlt : (i 0).val / 2000 < cfg5.N := by rw [show cfg5.N = 50 from N_5]; omega
  obtain ⟨e00, e01, e10, e11, e20, e21, e30, e31⟩ := idx5 ⟨(i 0).val / 2000, hlt⟩
  have er : win5_3.index ⟨(i 0).val / 2000, hlt⟩ (0 : Fin 2) = (i 0).val / 2000 := e30
  refine ⟨⟨(i 0).val / 2000, hlt⟩, flush5_3 _, ?_⟩
  show i ∈ ((View.whole main_v69_1).slice (win5_3.rect ⟨(i 0).val / 2000, hlt⟩)).set
  rw [View.set_slice_whole, Rect.mem_set_unit]
  intro a
  match a with
  | ⟨0, _⟩ =>
    show win5_3.index ⟨(i 0).val / 2000, hlt⟩ (0 : Fin 2) * 2000 ≤ (i 0).val
      ∧ (i 0).val < win5_3.index ⟨(i 0).val / 2000, hlt⟩ (0 : Fin 2) * 2000 + 2000
    rw [er]; omega
  | ⟨1, _⟩ =>
    show win5_3.index ⟨(i 0).val / 2000, hlt⟩ (1 : Fin 2) * 64 ≤ (i 1).val
      ∧ (i 1).val < win5_3.index ⟨(i 0).val / 2000, hlt⟩ (1 : Fin 2) * 64 + 64
    rw [e31]; omega

/-- The first output ends as the normalized table. -/
theorem emb5 (c : Dev nD) :
    (dat5 (F := Ideal) V c).arrAt 2 cfg5.N = Cert.Stages.normItems (F := Ideal) (V c main_v67) :=
  (dat5 (F := Ideal) V c).arrAt_eq_of_cover 2 _ (fun t _ => wrote5_2 V c t) (tiles5_2)

/-- The second output ends as the running sum plus the normalized table. -/
theorem sum5 (c : Dev nD) :
    (dat5 (F := Ideal) V c).arrAt 3 cfg5.N = addf (V c main_v47_1) (Cert.Stages.normItems (F := Ideal) (V c main_v67)) :=
  (dat5 (F := Ideal) V c).arrAt_eq_of_cover 3 _ (fun t _ => wrote5_3 V c t) (tiles5_3)

end Cert.KernelIdeal.Blocks

end
-- ==== Proof.Dot6.lean ====
/-
  What the row-product region leaves in its output array.

  The region runs over 8 grid points.  Point `t` loads rows `2048 t … 2048 t + 2047` of two tables of 16384 rows of
  64 entries, multiplies them entry by entry, sums each product row, and writes the 2048 sums back as entries
  `2048 t … 2048 t + 2047` of the output.  The reference multiplies the two whole tables and sums each row, starting
  from the zero word.  Read over the extended reals both are, at entry `n`, the sum over `d` of the products of the
  tables' entries `(n, d)`; the 8 blocks tile the output, entry `n` lying in the block of point `n / 2048`.
-/
import proofs.«149339_j41137196761091_1_alg».proof.Proof.Gen.KernelIdeal.Frame
import proofs.«149339_j41137196761091_1_alg».proof.Proof.Stages
import proofs.«149339_j41137196761091_1_alg».proof.Proof.LibLaneSum
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value

noncomputable section

namespace Cert.KernelIdeal.Blocks.Dot

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-! ## The two sides at one entry -/

set_option maxHeartbeats 400000 in
/-- The body's payload at row `r` of a block: the sum over the row of the products of the two blocks' entries. -/
theorem pay_row (x0 x1 : Vec Ideal S2048x64 .f32) (r : Fin 2048) :
    k6_pay1 (F := Ideal) x0 x1 (ix1 r) = ∑ d : Fin 64, x0 (ix2 r d) * x1 (ix2 r d) := by
  unfold k6_pay1
  simp only [shapeCast_self]
  exact Cert.LaneSum.sum_last2 (mulf x0 x1) 0x00000000#32 reduces_S2048x64_S2048 (.inl rfl) rfl r

set_option maxHeartbeats 400000 in
/-- The host's sum along the rows of a matrix, read at row `i`: the initial value plus the sum over the row. -/
theorem hostSum_row {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduceAdd x init h' hu (ix1 i) = init (Shape.Idx.first hu) + ∑ d : Fin b, x (ix2 i d) := by
  rw [hostReduceAdd_apply]
  refine (Ideal.hostReduceAdd_single h' h x _ (ix1 i)).trans ?_
  refine congrArg (init (Shape.Idx.first hu) + ·) (Finset.sum_congr rfl fun d _ => ?_)
  exact congrArg x (funext fun ax => Fin.ext (by match ax with | ⟨0, _⟩ => rfl | ⟨1, _⟩ => rfl))

set_option maxHeartbeats 400000 in
/-- The reference's row products at row `n`: the sum over the row of the products of the two tables' entries (the
    initial value is the zero word, which reads as zero). -/
theorem rowDot_row (a b : FVec Ideal Cert.ReferenceIdeal.S16384x64 .f32) (n : Fin 16384) :
    Cert.Stages.rowDot (F := Ideal) a b (ix1 n) = ∑ d : Fin 64, a (ix2 n d) * b (ix2 n d) := by
  unfold Cert.Stages.rowDot
  rw [hostSum_row (mulf a b) _ _ (by decide) _ n]
  show Ideal.ofBits .f32 0x00000000#32 + _ = _
  rw [Ideal.ofBits_zero_f32, zero_add]
  rfl

set_option maxHeartbeats 400000 in
/-- One entry: when the two loaded blocks are the two tables' rows around entry `i` of the array, what the body stores at
    entry `y` of its block is the reference's row product at `i`. -/
theorem point_eq (x0 x1 : Vec Ideal S2048x64 .f32) (a b : FVec Ideal Cert.ReferenceIdeal.S16384x64 .f32) (y : S2048.Idx) (i : S16384.Idx)
    (h0 : ∀ (p : S2048x64.Idx) (q : S16384x64.Idx), (p 0).val = (y 0).val → (q 0).val = (i 0).val → (q 1).val = (p 1).val → x0 p = a q)
    (h1 : ∀ (p : S2048x64.Idx) (q : S16384x64.Idx), (p 0).val = (y 0).val → (q 0).val = (i 0).val → (q 1).val = (p 1).val → x1 p = b q) :
    k6_pay1 (F := Ideal) x0 x1 y = Cert.Stages.rowDot (F := Ideal) a b i := by
  obtain ⟨r, rfl⟩ : ∃ r : Fin 2048, y = ix1 r := ⟨y 0, eq_ix1 y⟩
  obtain ⟨n, rfl⟩ : ∃ n : Fin 16384, i = ix1 n := ⟨i 0, eq_ix1 i⟩
  rw [pay_row, rowDot_row]
  exact Finset.sum_congr rfl fun d _ => by rw [h0 (ix2 r d) (ix2 n d) rfl rfl rfl, h1 (ix2 r d) (ix2 n d) rfl rfl rfl]

/-! ## The windows' blocks -/

/-- The zero offset of an access to a whole rank-1 block. -/
theorem hz1 : (![0] : Fin 1 → Nat) = fun _ => 0 := funext fun a => by fin_cases a <;> rfl
/-- The zero offsets of an access to a whole rank-2 block. -/
theorem hz2 : (![0, 0] : Fin 2 → Nat) = fun _ => 0 := funext fun a => by fin_cases a <;> rfl

/-- The three windows' block indices at every grid point: the point's number along the rows, zero along a row. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 1) = t.val :=
  (by decide +kernel : ∀ t : Fin grid6.N, _)

set_option maxHeartbeats 400000 in
/-- Point `t`'s block of the first table is its rows from `2048 t` on. -/
theorem blk0_apply (c : Dev nD) (t : Fin cfg6.N) (y : S2048x64.Idx) (i : S16384x64.Idx)
    (h0 : (i 0).val = t.val * 2048 + (y 0).val) (h1 : (i 1).val = (y 1).val) :
    iblk6 V c 0 t y = V c main_v80 i := by
  obtain ⟨e0, e1, -, -, -⟩ := idx_facts t
  unfold iblk6
  rw [View.read_apply]
  show V c main_v80 (((cfg6.win 0).blk t).view.emb y) = V c main_v80 i
  refine congrArg (V c main_v80) (funext fun a => Fin.ext ?_)
  match a with
  | ⟨0, _⟩ => show win6_0.index t (0 : Fin 2) * 2048 + 1 * (y 0).val = (i 0).val; omega
  | ⟨1, _⟩ => show win6_0.index t (1 : Fin 2) * 64 + 1 * (y 1).val = (i 1).val; omega

set_option maxHeartbeats 400000 in
/-- Point `t`'s block of the second table is its rows from `2048 t` on. -/
theorem blk1_apply (c : Dev nD) (t : Fin cfg6.N) (y : S2048x64.Idx) (i : S16384x64.Idx)
    (h0 : (i 0).val = t.val * 2048 + (y 0).val) (h1 : (i 1).val = (y 1).val) :
    iblk6 V c 1 t y = V c main_v87 i := by
  obtain ⟨-, -, e0, e1, -⟩ := idx_facts t
  unfold iblk6
  rw [View.read_apply]
  show V c main_v87 (((cfg6.win 1).blk t).view.emb y) = V c main_v87 i
  refine congrArg (V c main_v87) (funext fun a => Fin.ext ?_)
  match a with
  | ⟨0, _⟩ => show win6_1.index t (0 : Fin 2) * 2048 + 1 * (y 0).val = (i 0).val; omega
  | ⟨1, _⟩ => show win6_1.index t (1 : Fin 2) * 64 + 1 * (y 1).val = (i 1).val; omega

/-! ## From the blocks to the array -/

set_option maxHeartbeats 400000 in
/-- What point `t` writes back is block `t` of the reference's row products of the two tables as the region finds them. -/
theorem flushed_eq (c : Dev nD) (t : Fin cfg6.N) :
    (dat6 (F := Ideal) V c).flushed 2 t
      = ((cfg6.win 2).blk t).view.read (Elt Ideal) (Cert.Stages.rowDot (F := Ideal) (V c main_v80) (V c main_v87)) := by
  show (cfg6.win 2).cut (grid6.coords t) ((dat6 (F := Ideal) V c).after 2 t) = _
  rw [after6_2]
  unfold out6_2
  rw [View.canon_unit_zero hz1]
  simp only [View.ld_unit_zero (S := S2048x64) hz2]
  obtain ⟨-, -, -, -, e2⟩ := idx_facts t
  funext j
  show k6_pay1 (F := Ideal) (iblk6 V c 0 t) (iblk6 V c 1 t) ((cfg6.win 2).xinj (grid6.coords t) j)
    = Cert.Stages.rowDot (F := Ideal) (V c main_v80) (V c main_v87) (((cfg6.win 2).blk t).view.emb j)
  have hq : ((((cfg6.win 2).blk t).view.emb j) 0).val = win6_2.index t (0 : Fin 1) * 2048 + 1 * (j 0).val := rfl
  have hp : (((cfg6.win 2).xinj (grid6.coords t) j) 0).val = (j 0).val := rfl
  refine point_eq _ _ _ _ _ _ (fun p q h h' h'' => blk0_apply V c t p q ?_ h'') (fun p q h h' h'' => blk1_apply V c t p q ?_ h'')
  · rw [h', hq, h, hp, e2]; omega
  · rw [h', hq, h, hp, e2]; omega

/-- An index of the array is in point `t`'s block iff its coordinate is in the block's range. -/
theorem mem_blk (t : Fin cfg6.N) (i : S16384.Idx) :
    i ∈ ((cfg6.win 2).blk t).view.set ↔ ∀ a : Fin 1, win6_2.index t a * S2048.size a ≤ (i a).val ∧ (i a).val < win6_2.index t a * S2048.size a + S2048.size a := by
  show i ∈ ((View.whole main_v88).slice (win6_2.rect t)).set ↔ _
  rw [View.set_slice_whole, Rect.mem_set_unit]
  exact Iff.rfl

set_option maxHeartbeats 400000 in
/-- Every entry of the array is in the block of the point numbered by the entry's quotient by the block length. -/
theorem cover (i : S16384.Idx) : ∃ t : Fin cfg6.N, (cfg6.win 2).flush t = true ∧ i ∈ ((cfg6.win 2).blk t).view.set := by
  have hi : (i 0).val < 16384 := (i 0).isLt
  have hN : cfg6.N = 8 := N_6
  obtain ⟨t, ht⟩ : ∃ t : Fin cfg6.N, t.val = (i 0).val / 2048 := ⟨⟨(i 0).val / 2048, by rw [hN]; omega⟩, rfl⟩
  obtain ⟨-, -, -, -, e2⟩ := idx_facts t
  refine ⟨t, flush6_2 t, ?_⟩
  rw [mem_blk]
  intro a
  match a with
  | ⟨0, _⟩ =>
    show win6_2.index t (0 : Fin 1) * 2048 ≤ (i 0).val ∧ (i 0).val < win6_2.index t (0 : Fin 1) * 2048 + 2048
    rw [e2, ht]; omega

end Cert.KernelIdeal.Blocks.Dot

namespace Cert.KernelIdeal.Blocks

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- The region's output array ends as the row products of the two tables as the region finds them. -/
theorem dot6 (c : Dev nD) :
    (dat6 (F := Ideal) V c).arrAt 2 cfg6.N = Cert.Stages.rowDot (F := Ideal) (V c main_v80) (V c main_v87) := by
  exact (dat6 (F := Ideal) V c).arrAt_eq_of_cover 2 _ (fun t _ => Dot.flushed_eq V c t) Dot.cover

end Cert.KernelIdeal.Blocks

end
-- ==== Proof.KernelFoldA.lean ====
import proofs.«149339_j41137196761091_1_alg».proof.Proof.Gen.KernelIdeal.Frame
import proofs.«149339_j41137196761091_1_alg».proof.Proof.Stages
import Idealize.ShloMosaic.PureOps.Ideal
import proofs.«149339_j41137196761091_1_alg».proof.Proof.Norm0
import proofs.«149339_j41137196761091_1_alg».proof.Proof.Norm1
import proofs.«149339_j41137196761091_1_alg».proof.Proof.Norm2
import proofs.«149339_j41137196761091_1_alg».proof.Proof.Norm3

set_option maxRecDepth 16384

noncomputable section

namespace Cert.KernelIdeal.Result

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- A buffer that no operation of a host stretch writes holds after the stretch what it held before it: every
    operation writes one buffer, and the buffer asked about is none of them. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! # What each buffer holds at the first six segment boundaries, as a function of the launch memory

Boundary 1 follows the first host stretch, boundaries 2 and 3 the first layer's two normalizing regions, boundary 4 the
second host stretch, boundaries 5 and 6 the second layer's two regions.  A host stretch's result is read off its
operations; a region's output array is what the region's theorem says of its entry contents; every other buffer is
carried over from the boundary before. -/

/-! ## Boundary 1: after the first host stretch -/

/-- The first host stretch writes no argument array: the users' starting table is as launched. -/
theorem W1_arg0 : W1 m ρ c (Proc.devRef .tc main_arg0) = (m ((c : Thread nD τ).loc main_arg0)) := by
  refine Eq.trans ?_ (rfl : W0 m ρ c (Proc.devRef .tc main_arg0) = (m ((c : Thread nD τ).loc main_arg0)))
  host_keeps hostOps0

/-- The first host stretch writes no argument array: the items' starting table is as launched. -/
theorem W1_arg1 : W1 m ρ c (Proc.devRef .tc main_arg1) = (m ((c : Thread nD τ).loc main_arg1)) := by
  refine Eq.trans ?_ (rfl : W0 m ρ c (Proc.devRef .tc main_arg1) = (m ((c : Thread nD τ).loc main_arg1)))
  host_keeps hostOps0

set_option maxHeartbeats 1000000 in
/-- After the first host stretch: the user end of every edge, read off the stretch's operations. -/
theorem W1_v1 : W1 m ρ c (Proc.devRef .tc main_v1) = (Stages.edgeUsers (m ((c : Thread nD τ).loc main_arg4))) := by
  show StableHlo.after hostOps0 _ (Proc.devRef .tc main_v1) = _
  after_results
  rfl

set_option maxHeartbeats 1000000 in
/-- After the first host stretch: the item end of every edge, read off the stretch's operations. -/
theorem W1_v3 : W1 m ρ c (Proc.devRef .tc main_v3) = (Stages.edgeItems (m ((c : Thread nD τ).loc main_arg4))) := by
  show StableHlo.after hostOps0 _ (Proc.devRef .tc main_v3) = _
  after_results
  rfl

set_option maxHeartbeats 1000000 in
/-- After the first host stretch: what arrives at each user in layer one, read off the stretch's operations. -/
theorem W1_v13 : W1 m ρ c (Proc.devRef .tc main_v13) = Stages.aggUsers (F := Ideal) ((m ((c : Thread nD τ).loc main_arg1))) (Stages.edgeUsers (m ((c : Thread nD τ).loc main_arg4))) (Stages.edgeItems (m ((c : Thread nD τ).loc main_arg4))) := by
  show StableHlo.after hostOps0 _ (Proc.devRef .tc main_v13) = _
  after_results
  rfl

set_option maxHeartbeats 1000000 in
/-- After the first host stretch: what arrives at each item in layer one, read off the stretch's operations. -/
theorem W1_v23 : W1 m ρ c (Proc.devRef .tc main_v23) = Stages.aggItems (F := Ideal) ((m ((c : Thread nD τ).loc main_arg0))) (Stages.edgeUsers (m ((c : Thread nD τ).loc main_arg4))) (Stages.edgeItems (m ((c : Thread nD τ).loc main_arg4))) := by
  show StableHlo.after hostOps0 _ (Proc.devRef .tc main_v23) = _
  after_results
  rfl

/-! ## Boundary 2: after the users' region of layer one -/

/-- The region's first output, the users' rows of layer one: the rows of its first input, each divided by its bounded length. -/
theorem W2_v24_0 : W2 m ρ c (Proc.devRef .tc main_v24_0) = Stages.users1 (F := Ideal) (m ((c : Thread nD τ).loc main_arg1)) (m ((c : Thread nD τ).loc main_arg4)) := by
  refine ((W2_arr m ρ c 2).trans (Blocks.emb0 (V1 m ρ) c)).trans ?_
  rw [show V1 m ρ c main_v13 = _ from W1_v13 m ρ c]
  rfl

/-- The region's second output, the users' running sum through layer one: its second input plus the normalized rows of its first. -/
theorem W2_v24_1 : W2 m ρ c (Proc.devRef .tc main_v24_1) = addf (m ((c : Thread nD τ).loc main_arg0)) (Stages.users1 (F := Ideal) (m ((c : Thread nD τ).loc main_arg1)) (m ((c : Thread nD τ).loc main_arg4))) := by
  refine ((W2_arr m ρ c 3).trans (Blocks.sum0 (V1 m ρ) c)).trans ?_
  rw [show V1 m ρ c main_arg0 = _ from W1_arg0 m ρ c,
    show V1 m ρ c main_v13 = _ from W1_v13 m ρ c]
  rfl

/-- The user end of every edge is no array of this region: it is carried over. -/
theorem W2_v1 : W2 m ρ c (Proc.devRef .tc main_v1) = (Stages.edgeUsers (m ((c : Thread nD τ).loc main_arg4))) :=
  (W2_of_ne m ρ c main_v1 (by decide)).trans (W1_v1 m ρ c)

/-- The item end of every edge is no array of this region: it is carried over. -/
theorem W2_v3 : W2 m ρ c (Proc.devRef .tc main_v3) = (Stages.edgeItems (m ((c : Thread nD τ).loc main_arg4))) :=
  (W2_of_ne m ρ c main_v3 (by decide)).trans (W1_v3 m ρ c)

/-- What arrives at each item in layer one is no array of this region: it is carried over. -/
theorem W2_v23 : W2 m ρ c (Proc.devRef .tc main_v23) = Stages.aggItems (F := Ideal) ((m ((c : Thread nD τ).loc main_arg0))) (Stages.edgeUsers (m ((c : Thread nD τ).loc main_arg4))) (Stages.edgeItems (m ((c : Thread nD τ).loc main_arg4))) :=
  (W2_of_ne m ρ c main_v23 (by decide)).trans (W1_v23 m ρ c)

/-- The items' starting table is no array of this region: it is carried over. -/
theorem W2_arg1 : W2 m ρ c (Proc.devRef .tc main_arg1) = (m ((c : Thread nD τ).loc main_arg1)) :=
  (W2_of_ne m ρ c main_arg1 (by decide)).trans (W1_arg1 m ρ c)

/-! ## Boundary 3: after the items' region of layer one -/

/-- The region's first output, the items' rows of layer one: the rows of its first input, each divided by its bounded length. -/
theorem W3_v25_0 : W3 m ρ c (Proc.devRef .tc main_v25_0) = Stages.items1 (F := Ideal) (m ((c : Thread nD τ).loc main_arg0)) (m ((c : Thread nD τ).loc main_arg4)) := by
  refine ((W3_arr m ρ c 2).trans (Blocks.emb1 (V2 m ρ) c)).trans ?_
  rw [show V2 m ρ c main_v23 = _ from W2_v23 m ρ c]
  rfl

/-- The region's second output, the items' running sum through layer one: its second input plus the normalized rows of its first. -/
theorem W3_v25_1 : W3 m ρ c (Proc.devRef .tc main_v25_1) = addf (m ((c : Thread nD τ).loc main_arg1)) (Stages.items1 (F := Ideal) (m ((c : Thread nD τ).loc main_arg0)) (m ((c : Thread nD τ).loc main_arg4))) := by
  refine ((W3_arr m ρ c 3).trans (Blocks.sum1 (V2 m ρ) c)).trans ?_
  rw [show V2 m ρ c main_arg1 = _ from W2_arg1 m ρ c,
    show V2 m ρ c main_v23 = _ from W2_v23 m ρ c]
  rfl

/-- The user end of every edge is no array of this region: it is carried over. -/
theorem W3_v1 : W3 m ρ c (Proc.devRef .tc main_v1) = (Stages.edgeUsers (m ((c : Thread nD τ).loc main_arg4))) :=
  (W3_of_ne m ρ c main_v1 (by decide)).trans (W2_v1 m ρ c)

/-- The item end of every edge is no array of this region: it is carried over. -/
theorem W3_v3 : W3 m ρ c (Proc.devRef .tc main_v3) = (Stages.edgeItems (m ((c : Thread nD τ).loc main_arg4))) :=
  (W3_of_ne m ρ c main_v3 (by decide)).trans (W2_v3 m ρ c)

/-- The users' rows of layer one is no array of this region: it is carried over. -/
theorem W3_v24_0 : W3 m ρ c (Proc.devRef .tc main_v24_0) = Stages.users1 (F := Ideal) (m ((c : Thread nD τ).loc main_arg1)) (m ((c : Thread nD τ).loc main_arg4)) :=
  (W3_of_ne m ρ c main_v24_0 (by decide)).trans (W2_v24_0 m ρ c)

/-- The users' running sum through layer one is no array of this region: it is carried over. -/
theorem W3_v24_1 : W3 m ρ c (Proc.devRef .tc main_v24_1) = addf (m ((c : Thread nD τ).loc main_arg0)) (Stages.users1 (F := Ideal) (m ((c : Thread nD τ).loc main_arg1)) (m ((c : Thread nD τ).loc main_arg4))) :=
  (W3_of_ne m ρ c main_v24_1 (by decide)).trans (W2_v24_1 m ρ c)

/-! ## Boundary 4: after the second host stretch -/

set_option maxHeartbeats 1000000 in
/-- After the second host stretch: what arrives at each user in layer two, read off the stretch's operations. -/
theorem W4_v35 : W4 m ρ c (Proc.devRef .tc main_v35) = Stages.aggUsers (F := Ideal) (Stages.items1 (F := Ideal) (m ((c : Thread nD τ).loc main_arg0)) (m ((c : Thread nD τ).loc main_arg4))) (Stages.edgeUsers (m ((c : Thread nD τ).loc main_arg4))) (Stages.edgeItems (m ((c : Thread nD τ).loc main_arg4))) := by
  show StableHlo.after hostOps2 _ (Proc.devRef .tc main_v35) = _
  after_results
  rw [W3_v25_0 m ρ c, W3_v1 m ρ c, W3_v3 m ρ c]
  rfl

set_option maxHeartbeats 1000000 in
/-- After the second host stretch: what arrives at each item in layer two, read off the stretch's operations. -/
theorem W4_v45 : W4 m ρ c (Proc.devRef .tc main_v45) = Stages.aggItems (F := Ideal) (Stages.users1 (F := Ideal) (m ((c : Thread nD τ).loc main_arg1)) (m ((c : Thread nD τ).loc main_arg4))) (Stages.edgeUsers (m ((c : Thread nD τ).loc main_arg4))) (Stages.edgeItems (m ((c : Thread nD τ).loc main_arg4))) := by
  show StableHlo.after hostOps2 _ (Proc.devRef .tc main_v45) = _
  after_results
  rw [W3_v24_0 m ρ c, W3_v1 m ρ c, W3_v3 m ρ c]
  rfl

/-- The second host stretch does not write the user end of every edge: it is carried over. -/
theorem W4_v1 : W4 m ρ c (Proc.devRef .tc main_v1) = (Stages.edgeUsers (m ((c : Thread nD τ).loc main_arg4))) := by
  refine Eq.trans ?_ (W3_v1 m ρ c)
  host_keeps hostOps2

/-- The second host stretch does not write the item end of every edge: it is carried over. -/
theorem W4_v3 : W4 m ρ c (Proc.devRef .tc main_v3) = (Stages.edgeItems (m ((c : Thread nD τ).loc main_arg4))) := by
  refine Eq.trans ?_ (W3_v3 m ρ c)
  host_keeps hostOps2

/-- The second host stretch does not write the users' running sum through layer one: it is carried over. -/
theorem W4_v24_1 : W4 m ρ c (Proc.devRef .tc main_v24_1) = addf (m ((c : Thread nD τ).loc main_arg0)) (Stages.users1 (F := Ideal) (m ((c : Thread nD τ).loc main_arg1)) (m ((c : Thread nD τ).loc main_arg4))) := by
  refine Eq.trans ?_ (W3_v24_1 m ρ c)
  host_keeps hostOps2

/-- The second host stretch does not write the items' running sum through layer one: it is carried over. -/
theorem W4_v25_1 : W4 m ρ c (Proc.devRef .tc main_v25_1) = addf (m ((c : Thread nD τ).loc main_arg1)) (Stages.items1 (F := Ideal) (m ((c : Thread nD τ).loc main_arg0)) (m ((c : Thread nD τ).loc main_arg4))) := by
  refine Eq.trans ?_ (W3_v25_1 m ρ c)
  host_keeps hostOps2

/-! ## Boundary 5: after the users' region of layer two -/

/-- The region's first output, the users' rows of layer two: the rows of its first input, each divided by its bounded length. -/
theorem W5_v46_0 : W5 m ρ c (Proc.devRef .tc main_v46_0) = Stages.users2 (F := Ideal) (m ((c : Thread nD τ).loc main_arg0)) (m ((c : Thread nD τ).loc main_arg4)) := by
  refine ((W5_arr m ρ c 2).trans (Blocks.emb2 (V4 m ρ) c)).trans ?_
  rw [show V4 m ρ c main_v35 = _ from W4_v35 m ρ c]
  rfl

/-- The region's second output, the users' running sum through layer two: its second input plus the normalized rows of its first. -/
theorem W5_v46_1 : W5 m ρ c (Proc.devRef .tc main_v46_1) = addf (addf (m ((c : Thread nD τ).loc main_arg0)) (Stages.users1 (F := Ideal) (m ((c : Thread nD τ).loc main_arg1)) (m ((c : Thread nD τ).loc main_arg4)))) (Stages.users2 (F := Ideal) (m ((c : Thread nD τ).loc main_arg0)) (m ((c : Thread nD τ).loc main_arg4))) := by
  refine ((W5_arr m ρ c 3).trans (Blocks.sum2 (V4 m ρ) c)).trans ?_
  rw [show V4 m ρ c main_v24_1 = _ from W4_v24_1 m ρ c,
    show V4 m ρ c main_v35 = _ from W4_v35 m ρ c]
  rfl

/-- The user end of every edge is no array of this region: it is carried over. -/
theorem W5_v1 : W5 m ρ c (Proc.devRef .tc main_v1) = (Stages.edgeUsers (m ((c : Thread nD τ).loc main_arg4))) :=
  (W5_of_ne m ρ c main_v1 (by decide)).trans (W4_v1 m ρ c)

/-- The item end of every edge is no array of this region: it is carried over. -/
theorem W5_v3 : W5 m ρ c (Proc.devRef .tc main_v3) = (Stages.edgeItems (m ((c : Thread nD τ).loc main_arg4))) :=
  (W5_of_ne m ρ c main_v3 (by decide)).trans (W4_v3 m ρ c)

/-- What arrives at each item in layer two is no array of this region: it is carried over. -/
theorem W5_v45 : W5 m ρ c (Proc.devRef .tc main_v45) = Stages.aggItems (F := Ideal) (Stages.users1 (F := Ideal) (m ((c : Thread nD τ).loc main_arg1)) (m ((c : Thread nD τ).loc main_arg4))) (Stages.edgeUsers (m ((c : Thread nD τ).loc main_arg4))) (Stages.edgeItems (m ((c : Thread nD τ).loc main_arg4))) :=
  (W5_of_ne m ρ c main_v45 (by decide)).trans (W4_v45 m ρ c)

/-- The items' running sum through layer one is no array of this region: it is carried over. -/
theorem W5_v25_1 : W5 m ρ c (Proc.devRef .tc main_v25_1) = addf (m ((c : Thread nD τ).loc main_arg1)) (Stages.items1 (F := Ideal) (m ((c : Thread nD τ).loc main_arg0)) (m ((c : Thread nD τ).loc main_arg4))) :=
  (W5_of_ne m ρ c main_v25_1 (by decide)).trans (W4_v25_1 m ρ c)

/-! ## Boundary 6: after the items' region of layer two -/

/-- The region's first output, the items' rows of layer two: the rows of its first input, each divided by its bounded length. -/
theorem W6_v47_0 : W6 m ρ c (Proc.devRef .tc main_v47_0) = Stages.items2 (F := Ideal) (m ((c : Thread nD τ).loc main_arg1)) (m ((c : Thread nD τ).loc main_arg4)) := by
  refine ((W6_arr m ρ c 2).trans (Blocks.emb3 (V5 m ρ) c)).trans ?_
  rw [show V5 m ρ c main_v45 = _ from W5_v45 m ρ c]
  rfl

/-- The region's second output, the items' running sum through layer two: its second input plus the normalized rows of its first. -/
theorem W6_v47_1 : W6 m ρ c (Proc.devRef .tc main_v47_1) = addf (addf (m ((c : Thread nD τ).loc main_arg1)) (Stages.items1 (F := Ideal) (m ((c : Thread nD τ).loc main_arg0)) (m ((c : Thread nD τ).loc main_arg4)))) (Stages.items2 (F := Ideal) (m ((c : Thread nD τ).loc main_arg1)) (m ((c : Thread nD τ).loc main_arg4))) := by
  refine ((W6_arr m ρ c 3).trans (Blocks.sum3 (V5 m ρ) c)).trans ?_
  rw [show V5 m ρ c main_v25_1 = _ from W5_v25_1 m ρ c,
    show V5 m ρ c main_v45 = _ from W5_v45 m ρ c]
  rfl

/-- The user end of every edge is no array of this region: it is carried over. -/
theorem W6_v1 : W6 m ρ c (Proc.devRef .tc main_v1) = (Stages.edgeUsers (m ((c : Thread nD τ).loc main_arg4))) :=
  (W6_of_ne m ρ c main_v1 (by decide)).trans (W5_v1 m ρ c)

/-- The item end of every edge is no array of this region: it is carried over. -/
theorem W6_v3 : W6 m ρ c (Proc.devRef .tc main_v3) = (Stages.edgeItems (m ((c : Thread nD τ).loc main_arg4))) :=
  (W6_of_ne m ρ c main_v3 (by decide)).trans (W5_v3 m ρ c)

/-- The users' rows of layer two is no array of this region: it is carried over. -/
theorem W6_v46_0 : W6 m ρ c (Proc.devRef .tc main_v46_0) = Stages.users2 (F := Ideal) (m ((c : Thread nD τ).loc main_arg0)) (m ((c : Thread nD τ).loc main_arg4)) :=
  (W6_of_ne m ρ c main_v46_0 (by decide)).trans (W5_v46_0 m ρ c)

/-- The users' running sum through layer two is no array of this region: it is carried over. -/
theorem W6_v46_1 : W6 m ρ c (Proc.devRef .tc main_v46_1) = addf (addf (m ((c : Thread nD τ).loc main_arg0)) (Stages.users1 (F := Ideal) (m ((c : Thread nD τ).loc main_arg1)) (m ((c : Thread nD τ).loc main_arg4)))) (Stages.users2 (F := Ideal) (m ((c : Thread nD τ).loc main_arg0)) (m ((c : Thread nD τ).loc main_arg4))) :=
  (W6_of_ne m ρ c main_v46_1 (by decide)).trans (W5_v46_1 m ρ c)

end Cert.KernelIdeal.Result

end
-- ==== Proof.KernelFoldB.lean ====
import proofs.«149339_j41137196761091_1_alg».proof.Proof.Gen.KernelIdeal.Frame
import proofs.«149339_j41137196761091_1_alg».proof.Proof.Stages
import Idealize.ShloMosaic.PureOps.Ideal
import proofs.«149339_j41137196761091_1_alg».proof.Proof.KernelFoldA
import proofs.«149339_j41137196761091_1_alg».proof.Proof.Norm4
import proofs.«149339_j41137196761091_1_alg».proof.Proof.Norm5

set_option maxRecDepth 16384

noncomputable section

namespace Cert.KernelIdeal.Result

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! # What each buffer holds at segment boundaries seven to ten, as a function of the launch memory

Boundary 7 follows the third host stretch, boundaries 8 and 9 the third layer's two regions — whose running sums are
now the node's starting row plus its three layers' rows —, boundary 10 the last host stretch, which divides the sums by
four and picks the selected users' and items' rows. -/

/-! ## Boundary 7: after the third host stretch -/

set_option maxHeartbeats 1000000 in
/-- After the third host stretch: what arrives at each user in layer three, read off the stretch's operations. -/
theorem W7_v57 : W7 m ρ c (Proc.devRef .tc main_v57) = Stages.aggUsers (F := Ideal) (Stages.items2 (F := Ideal) (m ((c : Thread nD τ).loc main_arg1)) (m ((c : Thread nD τ).loc main_arg4))) (Stages.edgeUsers (m ((c : Thread nD τ).loc main_arg4))) (Stages.edgeItems (m ((c : Thread nD τ).loc main_arg4))) := by
  show StableHlo.after hostOps4 _ (Proc.devRef .tc main_v57) = _
  after_results
  rw [W6_v47_0 m ρ c, W6_v1 m ρ c, W6_v3 m ρ c]
  rfl

set_option maxHeartbeats 1000000 in
/-- After the third host stretch: what arrives at each item in layer three, read off the stretch's operations. -/
theorem W7_v67 : W7 m ρ c (Proc.devRef .tc main_v67) = Stages.aggItems (F := Ideal) (Stages.users2 (F := Ideal) (m ((c : Thread nD τ).loc main_arg0)) (m ((c : Thread nD τ).loc main_arg4))) (Stages.edgeUsers (m ((c : Thread nD τ).loc main_arg4))) (Stages.edgeItems (m ((c : Thread nD τ).loc main_arg4))) := by
  show StableHlo.after hostOps4 _ (Proc.devRef .tc main_v67) = _
  after_results
  rw [W6_v46_0 m ρ c, W6_v1 m ρ c, W6_v3 m ρ c]
  rfl

/-- The third host stretch does not write the users' running sum through layer two: it is carried over. -/
theorem W7_v46_1 : W7 m ρ c (Proc.devRef .tc main_v46_1) = addf (addf (m ((c : Thread nD τ).loc main_arg0)) (Stages.users1 (F := Ideal) (m ((c : Thread nD τ).loc main_arg1)) (m ((c : Thread nD τ).loc main_arg4)))) (Stages.users2 (F := Ideal) (m ((c : Thread nD τ).loc main_arg0)) (m ((c : Thread nD τ).loc main_arg4))) := by
  refine Eq.trans ?_ (W6_v46_1 m ρ c)
  host_keeps hostOps4

/-- The third host stretch does not write the items' running sum through layer two: it is carried over. -/
theorem W7_v47_1 : W7 m ρ c (Proc.devRef .tc main_v47_1) = addf (addf (m ((c : Thread nD τ).loc main_arg1)) (Stages.items1 (F := Ideal) (m ((c : Thread nD τ).loc main_arg0)) (m ((c : Thread nD τ).loc main_arg4)))) (Stages.items2 (F := Ideal) (m ((c : Thread nD τ).loc main_arg1)) (m ((c : Thread nD τ).loc main_arg4))) := by
  refine Eq.trans ?_ (W6_v47_1 m ρ c)
  host_keeps hostOps4

/-! ## Boundary 8: after the users' region of layer three -/

/-- The region's second output, the users' running sum through layer three: its second input plus the normalized rows of its first. -/
theorem W8_v68_1 : W8 m ρ c (Proc.devRef .tc main_v68_1) = Stages.userSum (F := Ideal) (m ((c : Thread nD τ).loc main_arg0)) (m ((c : Thread nD τ).loc main_arg1)) (m ((c : Thread nD τ).loc main_arg4)) := by
  refine ((W8_arr m ρ c 3).trans (Blocks.sum4 (V7 m ρ) c)).trans ?_
  rw [show V7 m ρ c main_v46_1 = _ from W7_v46_1 m ρ c,
    show V7 m ρ c main_v57 = _ from W7_v57 m ρ c]
  rfl

/-- What arrives at each item in layer three is no array of this region: it is carried over. -/
theorem W8_v67 : W8 m ρ c (Proc.devRef .tc main_v67) = Stages.aggItems (F := Ideal) (Stages.users2 (F := Ideal) (m ((c : Thread nD τ).loc main_arg0)) (m ((c : Thread nD τ).loc main_arg4))) (Stages.edgeUsers (m ((c : Thread nD τ).loc main_arg4))) (Stages.edgeItems (m ((c : Thread nD τ).loc main_arg4))) :=
  (W8_of_ne m ρ c main_v67 (by decide)).trans (W7_v67 m ρ c)

/-- The items' running sum through layer two is no array of this region: it is carried over. -/
theorem W8_v47_1 : W8 m ρ c (Proc.devRef .tc main_v47_1) = addf (addf (m ((c : Thread nD τ).loc main_arg1)) (Stages.items1 (F := Ideal) (m ((c : Thread nD τ).loc main_arg0)) (m ((c : Thread nD τ).loc main_arg4)))) (Stages.items2 (F := Ideal) (m ((c : Thread nD τ).loc main_arg1)) (m ((c : Thread nD τ).loc main_arg4))) :=
  (W8_of_ne m ρ c main_v47_1 (by decide)).trans (W7_v47_1 m ρ c)

/-! ## Boundary 9: after the items' region of layer three -/

/-- The region's second output, the items' running sum through layer three: its second input plus the normalized rows of its first. -/
theorem W9_v69_1 : W9 m ρ c (Proc.devRef .tc main_v69_1) = Stages.itemSum (F := Ideal) (m ((c : Thread nD τ).loc main_arg0)) (m ((c : Thread nD τ).loc main_arg1)) (m ((c : Thread nD τ).loc main_arg4)) := by
  refine ((W9_arr m ρ c 3).trans (Blocks.sum5 (V8 m ρ) c)).trans ?_
  rw [show V8 m ρ c main_v47_1 = _ from W8_v47_1 m ρ c,
    show V8 m ρ c main_v67 = _ from W8_v67 m ρ c]
  rfl

/-- The users' running sum through layer three is no array of this region: it is carried over. -/
theorem W9_v68_1 : W9 m ρ c (Proc.devRef .tc main_v68_1) = Stages.userSum (F := Ideal) (m ((c : Thread nD τ).loc main_arg0)) (m ((c : Thread nD τ).loc main_arg1)) (m ((c : Thread nD τ).loc main_arg4)) :=
  (W9_of_ne m ρ c main_v68_1 (by decide)).trans (W8_v68_1 m ρ c)

/-- The selected users' numbers are an argument that nothing writes: at boundary 9 they are as launched (the last
    boundary holds them as launched, and neither the last region nor the last host stretch writes them). -/
theorem W9_arg2 : W9 m ρ c (Proc.devRef .tc main_arg2) = (m ((c : Thread nD τ).loc main_arg2)) := by
  refine Eq.trans (Eq.symm ?_) (W11_main_arg2 m ρ c)
  refine (W11_of_ne m ρ c main_arg2 (by decide)).trans ?_
  host_keeps hostOps6

/-- The same for the selected items' numbers. -/
theorem W9_arg3 : W9 m ρ c (Proc.devRef .tc main_arg3) = (m ((c : Thread nD τ).loc main_arg3)) := by
  refine Eq.trans (Eq.symm ?_) (W11_main_arg3 m ρ c)
  refine (W11_of_ne m ρ c main_arg3 (by decide)).trans ?_
  host_keeps hostOps6

/-! ## Boundary 10: after the last host stretch -/

set_option maxHeartbeats 1000000 in
/-- After the last host stretch: the selected users' averaged rows, read off the stretch's operations. -/
theorem W10_v80 : W10 m ρ c (Proc.devRef .tc main_v80) = Stages.pickUsers (F := Ideal) (Stages.userSum (F := Ideal) (m ((c : Thread nD τ).loc main_arg0)) (m ((c : Thread nD τ).loc main_arg1)) (m ((c : Thread nD τ).loc main_arg4))) (m ((c : Thread nD τ).loc main_arg2)) := by
  show StableHlo.after hostOps6 _ (Proc.devRef .tc main_v80) = _
  after_results
  rw [W9_v68_1 m ρ c, W9_arg2 m ρ c]
  rfl

set_option maxHeartbeats 1000000 in
/-- After the last host stretch: the selected items' averaged rows, read off the stretch's operations. -/
theorem W10_v87 : W10 m ρ c (Proc.devRef .tc main_v87) = Stages.pickItems (F := Ideal) (Stages.itemSum (F := Ideal) (m ((c : Thread nD τ).loc main_arg0)) (m ((c : Thread nD τ).loc main_arg1)) (m ((c : Thread nD τ).loc main_arg4))) (m ((c : Thread nD τ).loc main_arg3)) := by
  show StableHlo.after hostOps6 _ (Proc.devRef .tc main_v87) = _
  after_results
  rw [W9_v69_1 m ρ c, W9_arg3 m ρ c]
  rfl

end Cert.KernelIdeal.Result

end
-- ==== Proof.KernelValue.lean ====
import proofs.«149339_j41137196761091_1_alg».proof.Proof.Gen.KernelIdeal.Frame
import proofs.«149339_j41137196761091_1_alg».proof.Proof.Stages
import Idealize.ShloMosaic.PureOps.Ideal
import proofs.«149339_j41137196761091_1_alg».proof.Proof.Norm0
import proofs.«149339_j41137196761091_1_alg».proof.Proof.Norm1
import proofs.«149339_j41137196761091_1_alg».proof.Proof.Norm2
import proofs.«149339_j41137196761091_1_alg».proof.Proof.Norm3
import proofs.«149339_j41137196761091_1_alg».proof.Proof.Norm4
import proofs.«149339_j41137196761091_1_alg».proof.Proof.Norm5
import proofs.«149339_j41137196761091_1_alg».proof.Proof.Dot6
import proofs.«149339_j41137196761091_1_alg».proof.Proof.KernelFoldB

noncomputable section

namespace Cert.KernelIdeal.Result

open Idealize.ShloMosaic Idealize.ShloMosaic.TcCoe Idealize.SL.Sem Cert.KernelIdeal Cert.KernelIdeal.Gen

/-- At the last segment boundary the result buffer holds the whole computation applied to the five argument arrays as
    launched: the last region leaves there the row products' sums of its two input arrays, which the last host stretch
    made the selected rows of the users' and the items' running sums divided by four. -/
theorem value (m : (ℓ : Loc nD τ sig) → Buf (Elt Ideal) ℓ) (ρ : Dev nD → PrngReg) (c : Dev nD) :
    W11 (F := Ideal) m ρ c (Proc.devRef .tc main_v88)
      = Cert.Stages.scores (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine ((W11_arr m ρ c 2).trans (Blocks.dot6 (V10 m ρ) c)).trans ?_
  rw [show V10 m ρ c main_v80 = _ from W10_v80 m ρ c, show V10 m ρ c main_v87 = _ from W10_v87 m ρ c]
  rfl

end Cert.KernelIdeal.Result

end
-- ==== Proof.RefBridge.lean ====
/-
  The reference's run, restated with its result named by the stages of the computation.

  The generated run gives the result buffer as one composed term of the launch contents, with the repeated
  intermediate results named.  Each named intermediate is, read off its definition, one stage applied to earlier
  ones: the two ends of the edge list, what arrives at the users and at the items in each of the three layers, and
  the normalized rows of each layer.  Composing these identifications turns the generated term into the stages' term.
-/
import proofs.«149339_j41137196761091_1_alg».proof.Proof.Gen.ReferenceIdeal.Run
import proofs.«149339_j41137196761091_1_alg».proof.Proof.Stages
import Idealize.ShloMosaic.PureOps.Ideal

noncomputable section

namespace Cert.ReferenceIdeal.Bridge

open Idealize.ShloMosaic Idealize.ShloMosaic.TcCoe Idealize.SL.Sem Idealize.ShloMosaic.StableHlo Cert.ReferenceIdeal Cert.ReferenceIdeal.Gen

section Stages

variable (V0 : Valuation τ sig (Elt Ideal))

/-- The user end of every edge. -/
theorem edgeUsers_eq : Value.res_main_v1 V0 = Cert.Stages.edgeUsers (V0 (Proc.devRef .tc main_arg4)) := rfl

/-- The item end of every edge. -/
theorem edgeItems_eq : Value.res_main_v3 V0 = Cert.Stages.edgeItems (V0 (Proc.devRef .tc main_arg4)) := rfl

/-- First layer, what arrives at the users: from the starting item table. -/
theorem agg_v13 : Value.res_main_v13 V0
    = Cert.Stages.aggUsers (F := Ideal) (V0 (Proc.devRef .tc main_arg1)) (Value.res_main_v1 V0) (Value.res_main_v3 V0) := rfl

/-- First layer, what arrives at the items: from the starting user table. -/
theorem agg_v23 : Value.res_main_v23 V0
    = Cert.Stages.aggItems (F := Ideal) (V0 (Proc.devRef .tc main_arg0)) (Value.res_main_v1 V0) (Value.res_main_v3 V0) := rfl

/-- First layer, the users' normalized rows. -/
theorem norm_v31 : Value.res_main_v31 V0 = Cert.Stages.normUsers (F := Ideal) (Value.res_main_v13 V0) := rfl

/-- First layer, the items' normalized rows. -/
theorem norm_v39 : Value.res_main_v39 V0 = Cert.Stages.normItems (F := Ideal) (Value.res_main_v23 V0) := rfl

/-- Second layer, what arrives at the users: from the first layer's item rows. -/
theorem agg_v51 : Value.res_main_v51 V0
    = Cert.Stages.aggUsers (F := Ideal) (Value.res_main_v39 V0) (Value.res_main_v1 V0) (Value.res_main_v3 V0) := rfl

/-- Second layer, what arrives at the items: from the first layer's user rows. -/
theorem agg_v61 : Value.res_main_v61 V0
    = Cert.Stages.aggItems (F := Ideal) (Value.res_main_v31 V0) (Value.res_main_v1 V0) (Value.res_main_v3 V0) := rfl

/-- Second layer, the users' normalized rows. -/
theorem norm_v69 : Value.res_main_v69 V0 = Cert.Stages.normUsers (F := Ideal) (Value.res_main_v51 V0) := rfl

/-- Second layer, the items' normalized rows. -/
theorem norm_v77 : Value.res_main_v77 V0 = Cert.Stages.normItems (F := Ideal) (Value.res_main_v61 V0) := rfl

/-- Third layer, what arrives at the users: from the second layer's item rows. -/
theorem agg_v89 : Value.res_main_v89 V0
    = Cert.Stages.aggUsers (F := Ideal) (Value.res_main_v77 V0) (Value.res_main_v1 V0) (Value.res_main_v3 V0) := rfl

/-- Third layer, what arrives at the items: from the second layer's user rows. -/
theorem agg_v99 : Value.res_main_v99 V0
    = Cert.Stages.aggItems (F := Ideal) (Value.res_main_v69 V0) (Value.res_main_v1 V0) (Value.res_main_v3 V0) := rfl

/-- The first layer's user rows as a stage of the arguments. -/
theorem users1_eq : Value.res_main_v31 V0
    = Cert.Stages.users1 (F := Ideal) (V0 (Proc.devRef .tc main_arg1)) (V0 (Proc.devRef .tc main_arg4)) := by
  rw [norm_v31, agg_v13, edgeUsers_eq, edgeItems_eq]; rfl

/-- The first layer's item rows as a stage of the arguments. -/
theorem items1_eq : Value.res_main_v39 V0
    = Cert.Stages.items1 (F := Ideal) (V0 (Proc.devRef .tc main_arg0)) (V0 (Proc.devRef .tc main_arg4)) := by
  rw [norm_v39, agg_v23, edgeUsers_eq, edgeItems_eq]; rfl

/-- The second layer's user rows as a stage of the arguments. -/
theorem users2_eq : Value.res_main_v69 V0
    = Cert.Stages.users2 (F := Ideal) (V0 (Proc.devRef .tc main_arg0)) (V0 (Proc.devRef .tc main_arg4)) := by
  rw [norm_v69, agg_v51, items1_eq, edgeUsers_eq, edgeItems_eq]; rfl

/-- The second layer's item rows as a stage of the arguments. -/
theorem items2_eq : Value.res_main_v77 V0
    = Cert.Stages.items2 (F := Ideal) (V0 (Proc.devRef .tc main_arg1)) (V0 (Proc.devRef .tc main_arg4)) := by
  rw [norm_v77, agg_v61, users1_eq, edgeUsers_eq, edgeItems_eq]; rfl

/-- What arrives at the users in the third layer, as a stage of the arguments. -/
theorem agg3Users_eq : Value.res_main_v89 V0
    = Cert.Stages.aggUsers (F := Ideal) (Cert.Stages.items2 (F := Ideal) (V0 (Proc.devRef .tc main_arg1)) (V0 (Proc.devRef .tc main_arg4)))
        (Cert.Stages.edgeUsers (V0 (Proc.devRef .tc main_arg4))) (Cert.Stages.edgeItems (V0 (Proc.devRef .tc main_arg4))) := by
  rw [agg_v89, items2_eq, edgeUsers_eq, edgeItems_eq]

/-- What arrives at the items in the third layer, as a stage of the arguments. -/
theorem agg3Items_eq : Value.res_main_v99 V0
    = Cert.Stages.aggItems (F := Ideal) (Cert.Stages.users2 (F := Ideal) (V0 (Proc.devRef .tc main_arg0)) (V0 (Proc.devRef .tc main_arg4)))
        (Cert.Stages.edgeUsers (V0 (Proc.devRef .tc main_arg4))) (Cert.Stages.edgeItems (V0 (Proc.devRef .tc main_arg4))) := by
  rw [agg_v99, users2_eq, edgeUsers_eq, edgeItems_eq]

end Stages

set_option maxHeartbeats 400000 in
/-- Every weakly fair execution of the reference ends with the result buffer holding the stages' scores of the five
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v137)
        = Cert.Stages.scores (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨(h c).1.trans ?_, (h c).2⟩) (Cert.ReferenceIdeal.Value.run (F := Ideal) m ρ)
  rw [users1_eq, items1_eq, users2_eq, items2_eq, agg3Users_eq, agg3Items_eq]
  rfl

end Cert.ReferenceIdeal.Bridge

end
-- ==== Proof.lean ====
/-
  The certificate's claim for the three-layer graph convolution.

  Both idealized programs gather rows along the edges and add them up at the other end, layer by layer, on the
  host, with the same operations.  They differ in one step per layer and table, and in the last step: where the
  reference divides every row of a whole table by its bounded Euclidean length and adds it to the running sum with
  host operations, the kernel does so block by block of 2000 rows on the TensorCore; and where the reference sums
  the products of the selected rows on the host, the kernel does it in blocks of 2048 rows.  Over the extended reals
  a block of the tiled pass is the same block of the whole-table function, because an entry of the result depends on
  its own row only, and the blocks tile the tables.  So both runs end with the result array at one and the same
  function of the argument arrays (`Cert.Stages.scores`), and no property of the inputs is used.

  The three frame conjuncts are the generated frame runs (the reference's is its generated run with the result
  dropped); the idealization rewrote nothing, so the fourth conjunct is trivial.
-/
import proofs.«149339_j41137196761091_1_alg».proof.Defs
import proofs.«149339_j41137196761091_1_alg».proof.Proof.Gen.Kernel
import proofs.«149339_j41137196761091_1_alg».proof.Proof.Gen.Kernel.Frame
import proofs.«149339_j41137196761091_1_alg».proof.Proof.Gen.KernelIdeal
import proofs.«149339_j41137196761091_1_alg».proof.Proof.Gen.KernelIdeal.Frame
import proofs.«149339_j41137196761091_1_alg».proof.Proof.Gen.ReferenceIdeal
import proofs.«149339_j41137196761091_1_alg».proof.Proof.Gen.ReferenceIdeal.Run
import proofs.«149339_j41137196761091_1_alg».proof.Proof.Gen.Pre_finite_inputs
import proofs.«149339_j41137196761091_1_alg».proof.Proof.Stages
import proofs.«149339_j41137196761091_1_alg».proof.Proof.KernelRun
import proofs.«149339_j41137196761091_1_alg».proof.Proof.KernelValue
import proofs.«149339_j41137196761091_1_alg».proof.Proof.RefBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result at the scores of the same arrays. -/
theorem algebraic : Cert.algebraic_KernelIdeal_ReferenceIdeal := by
  intro m ρ m' ρ' _ hagree
  refine ⟨fun c => Cert.Stages.scores (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.value m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Bridge.run m' ρ')
    obtain ⟨h0, h1, h2, h3, h4⟩ := hagree c
    rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
